-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x8192x5 : Shape := ⟨3, ![256, 8192, 5]⟩
abbrev S24x4 : Shape := ⟨2, ![24, 4]⟩
abbrev S64x5 : Shape := ⟨2, ![64, 5]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S_ : Shape := ⟨0, ![]⟩

class Facts : Prop where
  bcast_S_S256x8192x5 : S_.BroadcastsInDim S256x8192x5 (![] : Fin 0 → Fin S256x8192x5.rank)
  reducesTo_S256x8192x5_S_d0_1_2 : S256x8192x5.ReducesTo [0, 1, 2] S_
  h_S_ : 0 < S_.numel
  bcast_S_S24x4 : S_.BroadcastsInDim S24x4 (![] : Fin 0 → Fin S24x4.rank)
  reducesTo_S24x4_S_d0_1 : S24x4.ReducesTo [0, 1] S_
  bcast_S_S64x5 : S_.BroadcastsInDim S64x5 (![] : Fin 0 → Fin S64x5.rank)
  reducesTo_S64x5_S_d0_1 : S64x5.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1x32 .f32) (main_arg8 : FVec F S1 .f32) (main_v33 : IVec S_ 1) : IVec S_ 1 :=
  let main_v34 : FVec F S1x32 .f32 := Host.absf main_arg7
  let main_cst_12 : FVec F S_ .f32 := constant S_ .f32 0x7F800000#32
  let main_v35 : FVec F S1x32 .f32 := broadcastInDim S1x32 ![] bcast_S_S1x32 main_cst_12
  let main_v36 : IVec S1x32 1 := cmpf .olt main_v34 main_v35
  let main_c_13 : IVec S_ 1 := constantI S_ 1 1#1
  let main_v37 : IVec S_ 1 := (fun x v => Host.reduce IntOp.andi x v reducesTo_S1x32_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S64 .f32) (main_arg5 : FVec F S32x64 .f32) (main_arg6 : FVec F S32 .f32) (main_arg7 : FVec F S1x32 .f32) (main_arg8 : FVec F S1 .f32) (main_v13 : IVec S_ 1) (main_v16 : IVec S64x5 1) : IVec S_ 1 :=
  let main_c_5 : IVec S_ 1 := constantI S_ 1 1#1
  let main_v17 : IVec S_ 1 := (fun x v => Host.reduce IntOp.andi x v reducesTo_S64x5_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S32x64 .f32 := Host.absf main_arg5
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_v33

def fn {F : FTy → Type} [FloatOps F] (main_arg0 : FVec F S256x8192x5 .f32) (main_arg1 : FVec F S24x4 .f32) (main_arg2 : FVec F S24x4 .f32) (main_arg3 : FVec F S64x5 .f32) (main_arg4 : FVec F S64 .f32) (main_arg5 : FVec F S32x64 .f32) (main_arg6 : FVec F S32 .f32) (main_arg7 : FVec F S1x32 .f32) (main_arg8 : FVec F S1 .f32) : IVec S_ 1 :=
  let main_v0 : FVec F S256x8192x5 .f32 := Host.absf main_arg0
  let main_cst : FVec F S_ .f32 := constant S_ .f32 0x7F800000#32
  let main_v1 : FVec F S256x8192x5 .f32 := broadcastInDim S256x8192x5 ![] bcast_S_S256x8192x5 main_cst
  let main_v2 : IVec S256x8192x5 1 := cmpf .olt main_v0 main_v1
  let main_c : IVec S_ 1 := constantI S_ 1 1#1
  let main_v3 : IVec S_ 1 := (fun x v => Host.reduce IntOp.andi x v reducesTo_S256x8192x5_S_d0_1_2 h_S_) main_v2 main_c
  let main_v4 : FVec F S24x4 .f32 := Host.absf main_arg1
  let main_cst_0 : FVec F S_ .f32 := constant S_ .f32 0x7F800000#32
  let main_v5 : FVec F S24x4 .f32 := broadcastInDim S24x4 ![] bcast_S_S24x4 main_cst_0
  let main_v6 : IVec S24x4 1 := cmpf .olt main_v4 main_v5
  let main_c_1 : IVec S_ 1 := constantI S_ 1 1#1
  let main_v7 : IVec S_ 1 := (fun x v => Host.reduce IntOp.andi x v reducesTo_S24x4_S_d0_1 h_S_) main_v6 main_c_1
  let main_v8 : IVec S_ 1 := andi main_v3 main_v7
  let main_v9 : FVec F S24x4 .f32 := Host.absf main_arg2
  let main_cst_2 : FVec F S_ .f32 := constant S_ .f32 0x7F800000#32
  let main_v10 : FVec F S24x4 .f32 := broadcastInDim S24x4 ![] bcast_S_S24x4 main_cst_2
  let main_v11 : IVec S24x4 1 := cmpf .olt main_v9 main_v10
  let main_c_3 : IVec S_ 1 := constantI S_ 1 1#1
  let main_v12 : IVec S_ 1 := (fun x v => Host.reduce IntOp.andi x v reducesTo_S24x4_S_d0_1 h_S_) main_v11 main_c_3
  let main_v13 : IVec S_ 1 := andi main_v8 main_v12
  let main_v14 : FVec F S64x5 .f32 := Host.absf main_arg3
  let main_cst_4 : FVec F S_ .f32 := constant S_ .f32 0x7F800000#32
  let main_v15 : FVec F S64x5 .f32 := broadcastInDim S64x5 ![] bcast_S_S64x5 main_cst_4
  let main_v16 : IVec S64x5 1 := cmpf .olt main_v14 main_v15
  fn_part1 (F := F) main_arg4 main_arg5 main_arg6 main_arg7 main_arg8 main_v13 main_v16
-- ==== Kernel.lean ====
abbrev S256x8192x5 : Shape := ⟨3, ![256, 8192, 5]⟩
abbrev S24x4 : Shape := ⟨2, ![24, 4]⟩
abbrev S64x5 : Shape := ⟨2, ![64, 5]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S2097152x5 : Shape := ⟨2, ![2097152, 5]⟩
abbrev S24x8 : Shape := ⟨2, ![24, 8]⟩
abbrev S2097152 : Shape := ⟨1, ![2097152]⟩
abbrev S4096x5 : Shape := ⟨2, ![4096, 5]⟩
abbrev S4096 : Shape := ⟨1, ![4096]⟩
abbrev S4096x1 : Shape := ⟨2, ![4096, 1]⟩
abbrev S4096x4 : Shape := ⟨2, ![4096, 4]⟩
abbrev S4096x24 : Shape := ⟨2, ![4096, 24]⟩
abbrev S4096x8 : Shape := ⟨2, ![4096, 8]⟩
abbrev S5x64 : Shape := ⟨2, ![5, 64]⟩
abbrev S4096x64 : Shape := ⟨2, ![4096, 64]⟩
abbrev S1x64 : Shape := ⟨2, ![1, 64]⟩
abbrev S64x32 : Shape := ⟨2, ![64, 32]⟩
abbrev S4096x32 : Shape := ⟨2, ![4096, 32]⟩
abbrev S32x1 : Shape := ⟨2, ![32, 1]⟩
abbrev S1x1 : Shape := ⟨2, ![1, 1]⟩
abbrev S256x8192 : Shape := ⟨2, ![256, 8192]⟩

abbrev nBuf : Space → Nat
  | .hbm => 13
  | .vmem => 11
  | .smem => 0
  | _ => 0

abbrev bufTy : (tb : Table) → Fin (tcTables nBuf tb) → BufTy
  | .hbm, ⟨0, _⟩ => ⟨S256x8192x5, .f32⟩
  | .hbm, ⟨1, _⟩ => ⟨S24x4, .f32⟩
  | .hbm, ⟨2, _⟩ => ⟨S24x4, .f32⟩
  | .hbm, ⟨3, _⟩ => ⟨S64x5, .f32⟩
  | .hbm, ⟨4, _⟩ => ⟨S64, .f32⟩
  | .hbm, ⟨5, _⟩ => ⟨S32x64, .f32⟩
  | .hbm, ⟨6, _⟩ => ⟨S32, .f32⟩
  | .hbm, ⟨7, _⟩ => ⟨S1x32, .f32⟩
  | .hbm, ⟨8, _⟩ => ⟨S1, .f32⟩
  | .hbm, ⟨9, _⟩ => ⟨S2097152x5, .f32⟩
  | .hbm, ⟨10, _⟩ => ⟨S24x8, .f32⟩
  | .hbm, ⟨11, _⟩ => ⟨S2097152, .f32⟩
  | .hbm, ⟨12, _⟩ => ⟨S256x8192, .f32⟩
  | .local _ .vmem, ⟨0, _⟩ => ⟨S4096x5, .f32⟩
  | .local _ .vmem, ⟨1, _⟩ => ⟨S4096x5, .f32⟩
  | .local _ .vmem, ⟨2, _⟩ => ⟨S24x8, .f32⟩
  | .local _ .vmem, ⟨3, _⟩ => ⟨S64x5, .f32⟩
  | .local _ .vmem, ⟨4, _⟩ => ⟨S64, .f32⟩
  | .local _ .vmem, ⟨5, _⟩ => ⟨S32x64, .f32⟩
  | .local _ .vmem, ⟨6, _⟩ => ⟨S32, .f32⟩
  | .local _ .vmem, ⟨7, _⟩ => ⟨S1x32, .f32⟩
  | .local _ .vmem, ⟨8, _⟩ => ⟨S1, .f32⟩
  | .local _ .vmem, ⟨9, _⟩ => ⟨S4096, .f32⟩
  | .local _ .vmem, ⟨10, _⟩ => ⟨S4096, .f32⟩
  | _, _ => ⟨S256x8192x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S4096x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S24x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S256x8192x5_S2097152x5 : S256x8192x5.ShapeCasts S2097152x5
  concatenates_S24x4_S24x4_S24x8_d1 : Shape.Concatenates [S24x4, S24x4] S24x8 1
  inb_S4096x5_S4096x5_0_0 : ∀ a, (![0, 0] : Fin 2 → Nat) a + S4096x5.size a ≤ S4096x5.size a
  h_S4096x5 : 0 < S4096x5.numel
  shapeCasts_S4096x5_S4096x5 : S4096x5.ShapeCasts S4096x5
  slices_S4096x5_o0_4_S4096x1 : S4096x5.Slices ![0, 4] S4096x1
  shapeCasts_S4096x1_S4096 : S4096x1.ShapeCasts S4096
  slices_S4096x5_o0_0_S4096x4 : S4096x5.Slices ![0, 0] S4096x4
  reduces_S4096x4_S4096 : S4096x4.Reduces [1] S4096
  shapeCasts_S4096_S4096x1 : S4096.ShapeCasts S4096x1
  broadcasts_S4096x1_S4096x4 : S4096x1.Broadcasts S4096x4
  iota_S4096x24_d1_w32 : S4096x24.Iotas .tc 32 [1]
  broadcasts_S4096x1_S4096x24 : S4096x1.Broadcasts S4096x24
  natLt_1_32 : 1 < 32
  bitsLt_bf16_f32 : FTy.bits .bf16 < FTy.bits .f32
  inb_S24x8_S24x8_0_0 : ∀ a, (![0, 0] : Fin 2 → Nat) a + S24x8.size a ≤ S24x8.size a
  h_S24x8 : 0 < S24x8.numel
  shapeCasts_S24x8_S24x8 : S24x8.ShapeCasts S24x8
  slices_S4096x8_o0_0_S4096x4 : S4096x8.Slices ![0, 0] S4096x4
  slices_S4096x8_o0_4_S4096x4 : S4096x8.Slices ![0, 4] S4096x4
  concatenates_S4096x4_S4096x1_S4096x5_d1 : Shape.Concatenates [S4096x4, S4096x1] S4096x5 1
  inb_S64x5_S64x5_0_0 : ∀ a, (![0, 0] : Fin 2 → Nat) a + S64x5.size a ≤ S64x5.size a
  h_S64x5 : 0 < S64x5.numel
  transposes_S64x5_p1_0_S5x64 : S64x5.Transposes [1, 0] S5x64
  inb_S64_S64_0 : ∀ a, (![0] : Fin 1 → Nat) a + S64.size a ≤ S64.size a
  h_S64 : 0 < S64.numel
  shapeCasts_S64_S1x64 : S64.ShapeCasts S1x64
  broadcasts_S1x64_S4096x64 : S1x64.Broadcasts S4096x64
  inb_S32x64_S32x64_0_0 : ∀ a, (![0, 0] : Fin 2 → Nat) a + S32x64.size a ≤ S32x64.size a
  h_S32x64 : 0 < S32x64.numel
  transposes_S32x64_p1_0_S64x32 : S32x64.Transposes [1, 0] S64x32
  inb_S32_S32_0 : ∀ a, (![0] : Fin 1 → Nat) a + S32.size a ≤ S32.size a
  h_S32 : 0 < S32.numel
  shapeCasts_S32_S1x32 : S32.ShapeCasts S1x32
  broadcasts_S1x32_S4096x32 : S1x32.Broadcasts S4096x32
  inb_S1x32_S1x32_0_0 : ∀ a, (![0, 0] : Fin 2 → Nat) a + S1x32.size a ≤ S1x32.size a
  h_S1x32 : 0 < S1x32.numel
  transposes_S1x32_p1_0_S32x1 : S1x32.Transposes [1, 0] S32x1
  inb_S1_S1_0 : ∀ a, (![0] : Fin 1 → Nat) a + S1.size a ≤ S1.size a
  h_S1 : 0 < S1.numel
  shapeCasts_S1_S1x1 : S1.ShapeCasts S1x1
  broadcasts_S1x1_S4096x1 : S1x1.Broadcasts S4096x1
  inb_S4096_S4096_0 : ∀ a, (![0] : Fin 1 → Nat) a + S4096.size a ≤ S4096.size a
  h_S4096 : 0 < S4096.numel
  shapeCasts_S2097152_S256x8192 : S2097152.ShapeCasts S256x8192
  dot_S4096x24_S24x8_S4096x8_1_0_0_1_n_n_wf : DotDims.WF S4096x24 S24x8 S4096x8 [1] [0] [0] [1] [] []
  dot_S4096x5_S5x64_S4096x64_1_0_0_1_n_n_wf : DotDims.WF S4096x5 S5x64 S4096x64 [1] [0] [0] [1] [] []
  dot_S4096x64_S64x32_S4096x32_1_0_0_1_n_n_wf : DotDims.WF S4096x64 S64x32 S4096x32 [1] [0] [0] [1] [] []
  dot_S4096x32_S32x1_S4096x1_1_0_0_1_n_n_wf : DotDims.WF S4096x32 S32x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x5.size a ≤ S2097152x5.size a
  hwx0_0 : ∀ i : grid0.Coords, EltTy.bits .f32 = 32 ∨ (Rect.block (s := S2097152x5) S4096x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S24x8.size a ≤ S24x8.size a
  hwx0_1 : ∀ i : grid0.Coords, EltTy.bits .f32 = 32 ∨ (Rect.block (s := S24x8) S24x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x5.size a ≤ S64x5.size a
  hwx0_2 : ∀ i : grid0.Coords, EltTy.bits .f32 = 32 ∨ (Rect.block (s := S64x5) S64x5.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x64.size a ≤ S32x64.size a
  hwx0_4 : ∀ i : grid0.Coords, EltTy.bits .f32 = 32 ∨ (Rect.block (s := S32x64) S32x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32.size a ≤ S32.size a
  hwx0_5 : ∀ i : grid0.Coords, EltTy.bits .f32 = 32 ∨ (Rect.block (s := S32) S32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096.size a ≤ S2097152.size a
  hwx0_8 : ∀ i : grid0.Coords, EltTy.bits .f32 = 32 ∨ (Rect.block (s := S2097152) S4096.size (cc0_transform_8 i) (hinb0_8 i)).WholeWords (EltTy.packing .f32)

variable [Facts₀]

def dot_S4096x24_S24x8_S4096x8_1_0_0_1_n_n : DotDims S4096x24 S24x8 S4096x8 where
  lhsContracting := [1]
  rhsContracting := [0]
  lhsNonContracting := [0]
  rhsNonContracting := [1]
  lhsBatch := []
  rhsBatch := []
  wf := dot_S4096x24_S24x8_S4096x8_1_0_0_1_n_n_wf
def dot_S4096x5_S5x64_S4096x64_1_0_0_1_n_n : DotDims S4096x5 S5x64 S4096x64 where
  lhsContracting := [1]
  rhsContracting := [0]
  lhsNonContracting := [0]
  rhsNonContracting := [1]
  lhsBatch := []
  rhsBatch := []
  wf := dot_S4096x5_S5x64_S4096x64_1_0_0_1_n_n_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf
def dot_S4096x32_S32x1_S4096x1_1_0_0_1_n_n : DotDims S4096x32 S32x1 S4096x1 where
  lhsContracting := [1]
  rhsContracting := [0]
  lhsNonContracting := [0]
  rhsNonContracting := [1]
  lhsBatch := []
  rhsBatch := []
  wf := dot_S4096x32_S32x1_S4096x1_1_0_0_1_n_n_wf

abbrev win0_0 : Pipeline.Window sig grid0 :=
  Pipeline.Window.ofSpec (Memref.whole main_v0) S4096x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S24x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x5.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S32x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S4096.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S256x8192x5 : Shape := ⟨3, ![256, 8192, 5]⟩
abbrev S24x4 : Shape := ⟨2, ![24, 4]⟩
abbrev S64x5 : Shape := ⟨2, ![64, 5]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S2097152x5 : Shape := ⟨2, ![2097152, 5]⟩
abbrev S2097152x1 : Shape := ⟨2, ![2097152, 1]⟩
abbrev S2097152 : Shape := ⟨1, ![2097152]⟩
abbrev S_ : Shape := ⟨0, ![]⟩
abbrev S2097152x4 : Shape := ⟨2, ![2097152, 4]⟩
abbrev S5x64 : Shape := ⟨2, ![5, 64]⟩
abbrev S2097152x64 : Shape := ⟨2, ![2097152, 64]⟩
abbrev S1x64 : Shape := ⟨2, ![1, 64]⟩
abbrev S64x32 : Shape := ⟨2, ![64, 32]⟩
abbrev S2097152x32 : Shape := ⟨2, ![2097152, 32]⟩
abbrev S32x1 : Shape := ⟨2, ![32, 1]⟩
abbrev S1x1 : Shape := ⟨2, ![1, 1]⟩
abbrev S256x8192 : Shape := ⟨2, ![256, 8192]⟩

abbrev nBuf : Space → Nat
  | .hbm => 92
  | .vmem => 0
  | .smem => 0
  | _ => 0

abbrev bufTy : (tb : Table) → Fin (tcTables nBuf tb) → BufTy
  | .hbm, ⟨0, _⟩ => ⟨S256x8192x5, .f32⟩
  | .hbm, ⟨1, _⟩ => ⟨S24x4, .f32⟩
  | .hbm, ⟨2, _⟩ => ⟨S24x4, .f32⟩
  | .hbm, ⟨3, _⟩ => ⟨S64x5, .f32⟩
  | .hbm, ⟨4, _⟩ => ⟨S64, .f32⟩
  | .hbm, ⟨5, _⟩ => ⟨S32x64, .f32⟩
  | .hbm, ⟨6, _⟩ => ⟨S32, .f32⟩
  | .hbm, ⟨7, _⟩ => ⟨S1x32, .f32⟩
  | .hbm, ⟨8, _⟩ => ⟨S1, .f32⟩
  | .hbm, ⟨9, _⟩ => ⟨S2097152x5, .f32⟩
  | .hbm, ⟨10, _⟩ => ⟨S2097152x1, .f32⟩
  | .hbm, ⟨11, _⟩ => ⟨S2097152, .f32⟩
  | .hbm, ⟨12, _⟩ => ⟨S_, .f32⟩
  | .hbm, ⟨13, _⟩ => ⟨S2097152, .f32⟩
  | .hbm, ⟨14, _⟩ => ⟨S2097152, .f32⟩
  | .hbm, ⟨15, _⟩ => ⟨S2097152, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S2097152, .i32⟩
  | .hbm, ⟨20, _⟩ => ⟨S2097152, .i32⟩
  | .hbm, ⟨21, _⟩ => ⟨S_, .i32⟩
  | .hbm, ⟨22, _⟩ => ⟨S2097152, .i32⟩
  | .hbm, ⟨23, _⟩ => ⟨S2097152, .i32⟩
  | .hbm, ⟨24, _⟩ => ⟨S2097152x4, .f32⟩
  | .hbm, ⟨25, _⟩ => ⟨S_, .f32⟩
  | .hbm, ⟨26, _⟩ => ⟨S2097152, .f32⟩
  | .hbm, ⟨27, _⟩ => ⟨S2097152x1, .f32⟩
  | .hbm, ⟨28, _⟩ => ⟨S_, .f32⟩
  | .hbm, ⟨29, _⟩ => ⟨S2097152x1, .f32⟩
  | .hbm, ⟨30, _⟩ => ⟨S2097152x1, .f32⟩
  | .hbm, ⟨31, _⟩ => ⟨S2097152x4, .f32⟩
  | .hbm, ⟨32, _⟩ => ⟨S2097152x4, .f32⟩
  | .hbm, ⟨33, _⟩ => ⟨S2097152x4, .f32⟩
  | .hbm, ⟨34, _⟩ => ⟨S_, .f32⟩
  | .hbm, ⟨35, _⟩ => ⟨S2097152, .f32⟩
  | .hbm, ⟨36, _⟩ => ⟨S2097152x1, .f32⟩
  | .hbm, ⟨37, _⟩ => ⟨S_, .f32⟩
  | .hbm, ⟨38, _⟩ => ⟨S2097152x1, .f32⟩
  | .hbm, ⟨39, _⟩ => ⟨S2097152x1, .f32⟩
  | .hbm, ⟨40, _⟩ => ⟨S2097152x4, .f32⟩
  | .hbm, ⟨41, _⟩ => ⟨S2097152x4, .f32⟩
  | .hbm, ⟨42, _⟩ => ⟨S_, .f32⟩
  | .hbm, ⟨43, _⟩ => ⟨S2097152x1, .f32⟩
  | .hbm, ⟨44, _⟩ => ⟨S2097152x1, .f32⟩
  | .hbm, ⟨45, _⟩ => ⟨S2097152x1, .f32⟩
  | .hbm, ⟨46, _⟩ => ⟨S2097152x4, .f32⟩
  | .hbm, ⟨47, _⟩ => ⟨S2097152x4, .f32⟩
  | .hbm, ⟨48, _⟩ => ⟨S_, .i32⟩
  | .hbm, ⟨49, _⟩ => ⟨S2097152, .i32⟩
  | .hbm, ⟨50, _⟩ => ⟨S2097152, .i1⟩
  | .hbm, ⟨51, _⟩ => ⟨S_, .i32⟩
  | .hbm, ⟨52, _⟩ => ⟨S2097152, .i32⟩
  | .hbm, ⟨53, _⟩ => ⟨S2097152, .i32⟩
  | .hbm, ⟨54, _⟩ => ⟨S2097152, .i32⟩
  | .hbm, ⟨55, _⟩ => ⟨S2097152x1, .i32⟩
  | .hbm, ⟨56, _⟩ => ⟨S2097152x4, .f32⟩
  | .hbm, ⟨57, _⟩ => ⟨S2097152x4, .f32⟩
  | .hbm, ⟨58, _⟩ => ⟨S_, .i32⟩
  | .hbm, ⟨59, _⟩ => ⟨S2097152, .i32⟩
  | .hbm, ⟨60, _⟩ => ⟨S2097152, .i1⟩
  | .hbm, ⟨61, _⟩ => ⟨S_, .i32⟩
  | .hbm, ⟨62, _⟩ => ⟨S2097152, .i32⟩
  | .hbm, ⟨63, _⟩ => ⟨S2097152, .i32⟩
  | .hbm, ⟨64, _⟩ => ⟨S2097152, .i32⟩
  | .hbm, ⟨65, _⟩ => ⟨S2097152x1, .i32⟩
  | .hbm, ⟨66, _⟩ => ⟨S2097152x4, .f32⟩
  | .hbm, ⟨67, _⟩ => ⟨S2097152x4, .f32⟩
  | .hbm, ⟨68, _⟩ => ⟨S2097152x1, .f32⟩
  | .hbm, ⟨69, _⟩ => ⟨S2097152x5, .f32⟩
  | .hbm, ⟨70, _⟩ => ⟨S5x64, .f32⟩
  | .hbm, ⟨71, _⟩ => ⟨S2097152x64, .f32⟩
  | .hbm, ⟨72, _⟩ => ⟨S1x64, .f32⟩
  | .hbm, ⟨73, _⟩ => ⟨S2097152x64, .f32⟩
  | .hbm, ⟨74, _⟩ => ⟨S2097152x64, .f32⟩
  | .hbm, ⟨75, _⟩ => ⟨S_, .f32⟩
  | .hbm, ⟨76, _⟩ => ⟨S2097152x64, .f32⟩
  | .hbm, ⟨77, _⟩ => ⟨S2097152x64, .f32⟩
  | .hbm, ⟨78, _⟩ => ⟨S64x32, .f32⟩
  | .hbm, ⟨79, _⟩ => ⟨S2097152x32, .f32⟩
  | .hbm, ⟨80, _⟩ => ⟨S1x32, .f32⟩
  | .hbm, ⟨81, _⟩ => ⟨S2097152x32, .f32⟩
  | .hbm, ⟨82, _⟩ => ⟨S2097152x32, .f32⟩
  | .hbm, ⟨83, _⟩ => ⟨S_, .f32⟩
  | .hbm, ⟨84, _⟩ => ⟨S2097152x32, .f32⟩
  | .hbm, ⟨85, _⟩ => ⟨S2097152x32, .f32⟩
  | .hbm, ⟨86, _⟩ => ⟨S32x1, .f32⟩
  | .hbm, ⟨87, _⟩ => ⟨S2097152x1, .f32⟩
  | .hbm, ⟨88, _⟩ => ⟨S1x1, .f32⟩
  | .hbm, ⟨89, _⟩ => ⟨S2097152x1, .f32⟩
  | .hbm, ⟨90, _⟩ => ⟨S2097152x1, .f32⟩
  | .hbm, ⟨91, _⟩ => ⟨S256x8192, .f32⟩
  | _, _ => ⟨S256x8192x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_c_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_3 : Ref sig .tc := ⟨.hbm, 34, rfl⟩
abbrev main_v15 : Ref sig .tc := ⟨.hbm, 35, rfl⟩
abbrev main_v16 : Ref sig .tc := ⟨.hbm, 36, rfl⟩
abbrev main_cst_4 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_c_7 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_8 : Ref sig .tc := ⟨.hbm, 58, rfl⟩
abbrev main_v34 : Ref sig .tc := ⟨.hbm, 59, rfl⟩
abbrev main_v35 : Ref sig .tc := ⟨.hbm, 60, rfl⟩
abbrev main_c_9 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call1_cst : Ref sig .tc := ⟨.hbm, 75, rfl⟩
abbrev main_call1_v0 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_call2_cst : Ref sig .tc := ⟨.hbm, 83, rfl⟩
abbrev main_call2_v0 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩

abbrev nD : Nat := 1
abbrev τ : Topo := Topo.v7x

variable {F : FTy → Type} [FloatOps F]

class Facts₀ : Prop where
  shapeCasts_S256x8192x5_S2097152x5 : S256x8192x5.ShapeCasts S2097152x5
  slices_S2097152x5_S2097152x1_0_4 : S2097152x5.Slices ![0, 4] S2097152x1
  shapeCasts_S2097152x1_S2097152 : S2097152x1.ShapeCasts S2097152
  bcast_S_S2097152 : S_.BroadcastsInDim S2097152 (![] : Fin 0 → Fin S2097152.rank)
  slices_S2097152x5_S2097152x4_0_0 : S2097152x5.Slices ![0, 0] S2097152x4
  reducesTo_S2097152x4_S2097152_d1 : S2097152x4.ReducesTo [1] S2097152
  h_S_ : 0 < S_.numel
  bcast_S2097152_S2097152x1_0 : S2097152.BroadcastsInDim S2097152x1 (![0] : Fin 1 → Fin S2097152x1.rank)
  bcast_S_S2097152x1 : S_.BroadcastsInDim S2097152x1 (![] : Fin 0 → Fin S2097152x1.rank)
  bcast_S2097152x1_S2097152x4_0_1 : S2097152x1.BroadcastsInDim S2097152x4 (![0, 1] : Fin 2 → Fin S2097152x4.rank)
  concatenates_S2097152x4_S2097152x1_S2097152x5_d1 : Shape.Concatenates [S2097152x4, S2097152x1] S2097152x5 1
  transposes_S64x5_S5x64_1_0 : S64x5.Transposes [1, 0] S5x64
  bcast_S64_S1x64_1 : S64.BroadcastsInDim S1x64 (![1] : Fin 1 → Fin S1x64.rank)
  bcast_S1x64_S2097152x64_0_1 : S1x64.BroadcastsInDim S2097152x64 (![0, 1] : Fin 2 → Fin S2097152x64.rank)
  bcast_S_S2097152x64 : S_.BroadcastsInDim S2097152x64 (![] : Fin 0 → Fin S2097152x64.rank)
  transposes_S32x64_S64x32_1_0 : S32x64.Transposes [1, 0] S64x32
  bcast_S32_S1x32_1 : S32.BroadcastsInDim S1x32 (![1] : Fin 1 → Fin S1x32.rank)
  bcast_S1x32_S2097152x32_0_1 : S1x32.BroadcastsInDim S2097152x32 (![0, 1] : Fin 2 → Fin S2097152x32.rank)
  bcast_S_S2097152x32 : S_.BroadcastsInDim S2097152x32 (![] : Fin 0 → Fin S2097152x32.rank)
  transposes_S1x32_S32x1_1_0 : S1x32.Transposes [1, 0] S32x1
  bcast_S1_S1x1_1 : S1.BroadcastsInDim S1x1 (![1] : Fin 1 → Fin S1x1.rank)
  bcast_S1x1_S2097152x1_0_1 : S1x1.BroadcastsInDim S2097152x1 (![0, 1] : Fin 2 → Fin S2097152x1.rank)
  shapeCasts_S2097152x1_S256x8192 : S2097152x1.ShapeCasts S256x8192
  gather_S24x4_S2097152x1_S2097152x4_1_0_n_n_0_1_14_wf : GatherDims.WF S24x4 S2097152x1 S2097152x4 [1] [0] [] [0] [] 1 ![1, 4]
  dot_S2097152x5_S5x64_S2097152x64_1_0_0_1_n_n_wf : DotDims.WF S2097152x5 S5x64 S2097152x64 [1] [0] [0] [1] [] []
  dot_S2097152x64_S64x32_S2097152x32_1_0_0_1_n_n_wf : DotDims.WF S2097152x64 S64x32 S2097152x32 [1] [0] [0] [1] [] []
  dot_S2097152x32_S32x1_S2097152x1_1_0_0_1_n_n_wf : DotDims.WF S2097152x32 S32x1 S2097152x1 [1] [0] [0] [1] [] []

variable [Facts₀]

def gather_S24x4_S2097152x1_S2097152x4_1_0_n_n_0_1_14 : GatherDims S24x4 S2097152x1 S2097152x4 where
  offsetDims := [1]
  collapsedSliceDims := [0]
  operandBatchingDims := []
  startIndicesBatchingDims := []
  startIndexMap := [0]
  indexVectorDim := 1
  sliceSizes := ![1, 4]
  wf := gather_S24x4_S2097152x1_S2097152x4_1_0_n_n_0_1_14_wf
def dot_S2097152x5_S5x64_S2097152x64_1_0_0_1_n_n : DotDims S2097152x5 S5x64 S2097152x64 where
  lhsContracting := [1]
  rhsContracting := [0]
  lhsNonContracting := [0]
  rhsNonContracting := [1]
  lhsBatch := []
  rhsBatch := []
  wf := dot_S2097152x5_S5x64_S2097152x64_1_0_0_1_n_n_wf
def dot_S2097152x64_S64x32_S2097152x32_1_0_0_1_n_n : DotDims S2097152x64 S64x32 S2097152x32 where
  lhsContracting := [1]
  rhsContracting := [0]
  lhsNonContracting := [0]
  rhsNonContracting := [1]
  lhsBatch := []
  rhsBatch := []
  wf := dot_S2097152x64_S64x32_S2097152x32_1_0_0_1_n_n_wf
def dot_S2097152x32_S32x1_S2097152x1_1_0_0_1_n_n : DotDims S2097152x32 S32x1 S2097152x1 where
  lhsContracting := [1]
  rhsContracting := [0]
  lhsNonContracting := [0]
  rhsNonContracting := [1]
  lhsBatch := []
  rhsBatch := []
  wf := dot_S2097152x32_S32x1_S2097152x1_1_0_0_1_n_n_wf

class Facts : Prop extends Facts₀ where

variable [Facts]
-- ==== Proof.RouterRow.lean ====
/-
  The per-token score both programs compute, as one function on the extended reals.

  A token is a row of five numbers: four features and a position p. The position picks a layer
  clip(trunc(24 · p), 0, 23); the four features are normalised (mean and biased variance over the four, the variance
  offset by a small constant before the reciprocal square root), scaled and shifted by the layer's row of two 24 × 4 tables,
  and joined again with the position into a row of five. Three affine layers follow (5 → 64 → 32 → 1), the first two
  followed by the maximum with 0. The result array holds one score per token, tokens in row-major order of the first two axes.
-/
import Idealize.ShloMosaic.PureOps.Ideal
import Idealize.ShloMosaic.PureOps.Ideal.Laws
import Idealize.ShloMosaic.Lib.ValueIdx

noncomputable section

namespace Cert.RouterRow

open Idealize.ShloMosaic Idealize.ShloMosaic.ValueIdx

/-- The layer a position selects, as a 32-bit integer: 24 · p truncated toward zero, clipped below at 0 and above at 23. -/
def layerId (p : EReal) : BitVec 32 :=
  IntOp.minsi 23#32 (IntOp.maxsi 0#32 (Ideal.fptosi 32 (p * Ideal.ofBits .f32 0x41C00000#32)))

/-- The clipped integer lies in [0, 23], read signed. -/
theorem layerId_range (p : EReal) : 0 ≤ (layerId p).toInt ∧ (layerId p).toInt ≤ 23 := by
  unfold layerId IntOp.minsi IntOp.maxsi
  generalize Ideal.fptosi 32 (p * Ideal.ofBits .f32 0x41C00000#32) = z
  have h0 : (0#32 : BitVec 32).toInt = 0 := by decide
  have h23 : (23#32 : BitVec 32).toInt = 23 := by decide
  simp only [BitVec.slt, decide_eq_true_eq]
  split_ifs with h1 h2 h2 <;> omega

/-- The same as a row number of the 24-row tables. -/
def layerIdx (p : EReal) : Fin 24 := ⟨(layerId p).toInt.toNat, by have := layerId_range p; omega⟩

/-- The four features of a token. -/
def feats (xr : Fin 5 → EReal) (k : Fin 4) : EReal := xr ⟨k.val, by omega⟩

/-- The mean of four numbers: their sum over 4. -/
def mean4 (f : Fin 4 → EReal) : EReal := Ideal.div (∑ k : Fin 4, f k) (Ideal.ofBits .f32 0x40800000#32)

/-- Their biased variance: the mean of the squared deviations. -/
def var4 (f : Fin 4 → EReal) : EReal :=
  Ideal.div (∑ k : Fin 4, (f k - mean4 f) * (f k - mean4 f)) (Ideal.ofBits .f32 0x40800000#32)

/-- A feature normalised: its deviation times the reciprocal square root of the offset variance. -/
def normed (f : Fin 4 → EReal) (j : Fin 4) : EReal :=
  (f j - mean4 f) * Ideal.rsqrt (var4 f + Ideal.ofBits .f32 0x3727C5AC#32)

/-- The row of five the first affine layer reads: the normalised features scaled and shifted by the selected layer's rows,
    then the position unchanged. -/
def xnorm (xr : Fin 5 → EReal) (lw lb : Fin 24 → Fin 4 → EReal) (j : Fin 5) : EReal :=
  if h : j.val < 4 then
    normed (feats xr) ⟨j.val, h⟩ * lw (layerIdx (xr 4)) ⟨j.val, h⟩ + lb (layerIdx (xr 4)) ⟨j.val, h⟩
  else xr 4

/-- One output of an affine layer: the row against a row of the weights, plus the bias. -/
def dense {n k : Nat} (z : Fin n → EReal) (W : Fin k → Fin n → EReal) (b : Fin k → EReal) (o : Fin k) : EReal :=
  (∑ j : Fin n, z j * W o j) + b o

/-- The score of a token. -/
def score (xr : Fin 5 → EReal) (lw lb : Fin 24 → Fin 4 → EReal) (W1 : Fin 64 → Fin 5 → EReal) (b1 : Fin 64 → EReal)
    (W2 : Fin 32 → Fin 64 → EReal) (b2 : Fin 32 → EReal) (W3 : Fin 1 → Fin 32 → EReal) (b3 : Fin 1 → EReal) : EReal :=
  dense (fun k => max (dense (fun k => max (dense (xnorm xr lw lb) W1 b1 k) 0) W2 b2 k) 0) W3 b3 0

/-- The score of token n of a [2097152, 5] array of tokens, the parameters given as arrays. -/
def rowScore (X : (⟨2, ![2097152, 5]⟩ : Shape).Idx → EReal) (lw lb : (⟨2, ![24, 4]⟩ : Shape).Idx → EReal)
    (W1 : (⟨2, ![64, 5]⟩ : Shape).Idx → EReal) (b1 : (⟨1, ![64]⟩ : Shape).Idx → EReal)
    (W2 : (⟨2, ![32, 64]⟩ : Shape).Idx → EReal) (b2 : (⟨1, ![32]⟩ : Shape).Idx → EReal)
    (W3 : (⟨2, ![1, 32]⟩ : Shape).Idx → EReal) (b3 : (⟨1, ![1]⟩ : Shape).Idx → EReal) (n : Fin 2097152) : EReal :=
  score (fun j => X (ix2 n j)) (fun a b => lw (ix2 a b)) (fun a b => lb (ix2 a b)) (fun a b => W1 (ix2 a b))
    (fun a => b1 (ix1 a)) (fun a b => W2 (ix2 a b)) (fun a => b2 (ix1 a)) (fun a b => W3 (ix2 a b)) (fun a => b3 (ix1 a))

/-- The token an index of the [256, 8192] result names: its row-major position. -/
def flat (i : (⟨2, ![256, 8192]⟩ : Shape).Idx) : Fin 2097152 :=
  ⟨(i 0).val * 8192 + (i 1).val, by
    have h0 : (i 0).val < 256 := (i 0).isLt
    have h1 : (i 1).val < 8192 := (i 1).isLt
    omega⟩

/-- The whole result: one score per token. -/
def G (X : (⟨2, ![2097152, 5]⟩ : Shape).Idx → EReal) (lw lb : (⟨2, ![24, 4]⟩ : Shape).Idx → EReal)
    (W1 : (⟨2, ![64, 5]⟩ : Shape).Idx → EReal) (b1 : (⟨1, ![64]⟩ : Shape).Idx → EReal)
    (W2 : (⟨2, ![32, 64]⟩ : Shape).Idx → EReal) (b2 : (⟨1, ![32]⟩ : Shape).Idx → EReal)
    (W3 : (⟨2, ![1, 32]⟩ : Shape).Idx → EReal) (b3 : (⟨1, ![1]⟩ : Shape).Idx → EReal) :
    (⟨2, ![256, 8192]⟩ : Shape).Idx → EReal :=
  fun i => rowScore X lw lb W1 b1 W2 b2 W3 b3 (flat i)

end Cert.RouterRow

end
-- ==== Proof.Cols.lean ====
/-
  A column of numbers as a vector and back, and a column repeated across the columns of a matrix, each read at an index:
  the shapes [a] and [a, 1] hold the same numbers in the same order, and the broadcast of an [a, 1] column to [a, b]
  has the column's entry of row i everywhere in row i.
-/
import Idealize.ShloMosaic.Lib.Pipeline.Value
import Idealize.ShloMosaic.Lib.ValueIdx
import Idealize.ShloMosaic.Lib.ValueLayout

noncomputable section

namespace Cert.Cols

open Idealize.ShloMosaic Idealize.ShloMosaic.ValueIdx

variable {α : Type}

/-- An [a, 1] array cast to [a] reads, at i, the operand at (i, 0). -/
theorem cast_col_vec {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An [a] array cast to [a, 1] reads, at (i, u), the operand at i. -/
theorem cast_vec_col {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An [a, 1] column broadcast to [a, b] reads, at (i, j), the column at (i, 0) (for a column of more than one row). -/
theorem bcast_col {a b : ℕ} (ha : a ≠ 1) (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) := by
  refine broadcastTo_apply x h (ix2 i j) (ix2 i (0 : Fin 1)) fun ax => ?_
  match ax with
  | ⟨0, _⟩ =>
    show i.val = if a = 1 then 0 else i.val
    rw [if_neg ha]
  | ⟨1, _⟩ => rfl

end Cert.Cols

end
-- ==== Proof.KernelProducts.lean ====
/-
  The four matrix products of the kernel body, each read at one entry: at the exact values a product into a zero accumulator
  is, entry by entry, the sum over the contracted axis of the left operand's row against the right operand's column.
  The four statements differ only in the extents; the argument is the same each time.
-/
import proofs.«177214_j15848429322274_1_alg».proof.Proof.Gen.KernelIdeal.Skeleton
import Idealize.ShloMosaic.Lib.ValueIdx
import Idealize.ShloMosaic.PureOps.Ideal.Laws

noncomputable section

namespace Cert.KernelIdeal.Row

open Cert.KernelIdeal Cert.KernelIdeal.Gen Idealize.ShloMosaic Idealize.ShloMosaic.ValueIdx

theorem mm24_l0 (i : S4096x8.Idx) (q : dot_S4096x24_S24x8_S4096x8_1_0_0_1_n_n.contr.Idx) : (dot_S4096x24_S24x8_S4096x8_1_0_0_1_n_n.lhsIdx i q 0).val = (i 0).val := by
  unfold DotDims.lhsIdx
  rw [dif_neg (show ¬(0 : Fin S4096x24.rank) ∈ dot_S4096x24_S24x8_S4096x8_1_0_0_1_n_n.lhsBatch by decide), dif_pos (show (0 : Fin S4096x24.rank) ∈ dot_S4096x24_S24x8_S4096x8_1_0_0_1_n_n.lhsNonContracting by decide)]
  rfl
theorem mm24_r1 (i : S4096x8.Idx) (q : dot_S4096x24_S24x8_S4096x8_1_0_0_1_n_n.contr.Idx) : (dot_S4096x24_S24x8_S4096x8_1_0_0_1_n_n.rhsIdx i q 1).val = (i 1).val := by
  unfold DotDims.rhsIdx
  rw [dif_neg (show ¬(1 : Fin S24x8.rank) ∈ dot_S4096x24_S24x8_S4096x8_1_0_0_1_n_n.rhsBatch by decide), dif_pos (show (1 : Fin S24x8.rank) ∈ dot_S4096x24_S24x8_S4096x8_1_0_0_1_n_n.rhsNonContracting by decide)]
  rfl

/-- The matrix product of a [4096, 24] block with a [24, 8] matrix into a zero accumulator, read at (p, c): the sum over the
    24 contracted positions of row p against column c. -/
theorem mm24 (A : FVec Ideal S4096x24 .bf16) (B : FVec Ideal S24x8 .bf16) (p : Fin 4096) (c : Fin 8) :
    matmul dot_S4096x24_S24x8_S4096x8_1_0_0_1_n_n none A B (constant S4096x8 .f32 0x00000000#32) (ix2 p c) = ∑ k : Fin 24, A (ix2 p k) * B (ix2 k c) := by
  simp only [matmul]
  rw [Ideal.matmul_constant_zero_apply, ← Equiv.sum_comp (contrEquiv1 dot_S4096x24_S24x8_S4096x8_1_0_0_1_n_n 24 rfl rfl).symm]
  refine Finset.sum_congr rfl fun k _ => ?_
  have hk := contrEquiv1_symm_val dot_S4096x24_S24x8_S4096x8_1_0_0_1_n_n 24 rfl rfl k
  have el : dot_S4096x24_S24x8_S4096x8_1_0_0_1_n_n.lhsIdx (ix2 p c) ((contrEquiv1 dot_S4096x24_S24x8_S4096x8_1_0_0_1_n_n 24 rfl rfl).symm k) = ix2 p k := funext fun a => Fin.ext (by
    match a with
    | ⟨0, _⟩ => exact mm24_l0 _ _
    | ⟨1, _⟩ => exact (dot_S4096x24_S24x8_S4096x8_1_0_0_1_n_n.lhsIdx_val_of_single rfl _ _).trans hk)
  have er : dot_S4096x24_S24x8_S4096x8_1_0_0_1_n_n.rhsIdx (ix2 p c) ((contrEquiv1 dot_S4096x24_S24x8_S4096x8_1_0_0_1_n_n 24 rfl rfl).symm k) = ix2 k c := funext fun a => Fin.ext (by
    match a with
    | ⟨0, _⟩ => exact (dot_S4096x24_S24x8_S4096x8_1_0_0_1_n_n.rhsIdx_val_of_single rfl _ _).trans hk
    | ⟨1, _⟩ => exact mm24_r1 _ _)
  rw [el, er]

theorem mm5_l0 (i : S4096x64.Idx) (q : dot_S4096x5_S5x64_S4096x64_1_0_0_1_n_n.contr.Idx) : (dot_S4096x5_S5x64_S4096x64_1_0_0_1_n_n.lhsIdx i q 0).val = (i 0).val := by
  unfold DotDims.lhsIdx
  rw [dif_neg (show ¬(0 : Fin S4096x5.rank) ∈ dot_S4096x5_S5x64_S4096x64_1_0_0_1_n_n.lhsBatch by decide), dif_pos (show (0 : Fin S4096x5.rank) ∈ dot_S4096x5_S5x64_S4096x64_1_0_0_1_n_n.lhsNonContracting by decide)]
  rfl
theorem mm5_r1 (i : S4096x64.Idx) (q : dot_S4096x5_S5x64_S4096x64_1_0_0_1_n_n.contr.Idx) : (dot_S4096x5_S5x64_S4096x64_1_0_0_1_n_n.rhsIdx i q 1).val = (i 1).val := by
  unfold DotDims.rhsIdx
  rw [dif_neg (show ¬(1 : Fin S5x64.rank) ∈ dot_S4096x5_S5x64_S4096x64_1_0_0_1_n_n.rhsBatch by decide), dif_pos (show (1 : Fin S5x64.rank) ∈ dot_S4096x5_S5x64_S4096x64_1_0_0_1_n_n.rhsNonContracting by decide)]
  rfl

/-- The matrix product of a [4096, 5] block with a [5, 64] matrix into a zero accumulator, read at (p, c): the sum over the
    5 contracted positions of row p against column c. -/
theorem mm5 (A : FVec Ideal S4096x5 .bf16) (B : FVec Ideal S5x64 .bf16) (p : Fin 4096) (c : Fin 64) :
    matmul dot_S4096x5_S5x64_S4096x64_1_0_0_1_n_n none A B (constant S4096x64 .f32 0x00000000#32) (ix2 p c) = ∑ k : Fin 5, A (ix2 p k) * B (ix2 k c) := by
  simp only [matmul]
  rw [Ideal.matmul_constant_zero_apply, ← Equiv.sum_comp (contrEquiv1 dot_S4096x5_S5x64_S4096x64_1_0_0_1_n_n 5 rfl rfl).symm]
  refine Finset.sum_congr rfl fun k _ => ?_
  have hk := contrEquiv1_symm_val dot_S4096x5_S5x64_S4096x64_1_0_0_1_n_n 5 rfl rfl k
  have el : dot_S4096x5_S5x64_S4096x64_1_0_0_1_n_n.lhsIdx (ix2 p c) ((contrEquiv1 dot_S4096x5_S5x64_S4096x64_1_0_0_1_n_n 5 rfl rfl).symm k) = ix2 p k := funext fun a => Fin.ext (by
    match a with
    | ⟨0, _⟩ => exact mm5_l0 _ _
    | ⟨1, _⟩ => exact (dot_S4096x5_S5x64_S4096x64_1_0_0_1_n_n.lhsIdx_val_of_single rfl _ _).trans hk)
  have er : dot_S4096x5_S5x64_S4096x64_1_0_0_1_n_n.rhsIdx (ix2 p c) ((contrEquiv1 dot_S4096x5_S5x64_S4096x64_1_0_0_1_n_n 5 rfl rfl).symm k) = ix2 k c := funext fun a => Fin.ext (by
    match a with
    | ⟨0, _⟩ => exact (dot_S4096x5_S5x64_S4096x64_1_0_0_1_n_n.rhsIdx_val_of_single rfl _ _).trans hk
    | ⟨1, _⟩ => exact mm5_r1 _ _)
  rw [el, er]

theorem mm64_l0 (i : S4096x32.Idx) (q : dot_S4096x64_S64x32_S4096x32_1_0_0_1_n_n.contr.Idx) : (dot_S4096x64_S64x32_S4096x32_1_0_0_1_n_n.lhsIdx i q 0).val = (i 0).val := by
  unfold DotDims.lhsIdx
  rw [dif_neg (show ¬(0 : Fin S4096x64.rank) ∈ dot_S4096x64_S64x32_S4096x32_1_0_0_1_n_n.lhsBatch by decide), dif_pos (show (0 : Fin S4096x64.rank) ∈ dot_S4096x64_S64x32_S4096x32_1_0_0_1_n_n.lhsNonContracting by decide)]
  rfl
theorem mm64_r1 (i : S4096x32.Idx) (q : dot_S4096x64_S64x32_S4096x32_1_0_0_1_n_n.contr.Idx) : (dot_S4096x64_S64x32_S4096x32_1_0_0_1_n_n.rhsIdx i q 1).val = (i 1).val := by
  unfold DotDims.rhsIdx
  rw [dif_neg (show ¬(1 : Fin S64x32.rank) ∈ dot_S4096x64_S64x32_S4096x32_1_0_0_1_n_n.rhsBatch by decide), dif_pos (show (1 : Fin S64x32.rank) ∈ dot_S4096x64_S64x32_S4096x32_1_0_0_1_n_n.rhsNonContracting by decide)]
  rfl

/-- The matrix product of a [4096, 64] block with a [64, 32] matrix into a zero accumulator, read at (p, c): the sum over the
    64 contracted positions of row p against column c. -/
theorem mm64 (A : FVec Ideal S4096x64 .bf16) (B : FVec Ideal S64x32 .bf16) (p : Fin 4096) (c : Fin 32) :
    matmul dot_S4096x64_S64x32_S4096x32_1_0_0_1_n_n none A B (constant S4096x32 .f32 0x00000000#32) (ix2 p c) = ∑ k : Fin 64, A (ix2 p k) * B (ix2 k c) := by
  simp only [matmul]
  rw [Ideal.matmul_constant_zero_apply, ← Equiv.sum_comp (contrEquiv1 dot_S4096x64_S64x32_S4096x32_1_0_0_1_n_n 64 rfl rfl).symm]
  refine Finset.sum_congr rfl fun k _ => ?_
  have hk := contrEquiv1_symm_val dot_S4096x64_S64x32_S4096x32_1_0_0_1_n_n 64 rfl rfl k
  have el : dot_S4096x64_S64x32_S4096x32_1_0_0_1_n_n.lhsIdx (ix2 p c) ((contrEquiv1 dot_S4096x64_S64x32_S4096x32_1_0_0_1_n_n 64 rfl rfl).symm k) = ix2 p k := funext fun a => Fin.ext (by
    match a with
    | ⟨0, _⟩ => exact mm64_l0 _ _
    | ⟨1, _⟩ => exact (dot_S4096x64_S64x32_S4096x32_1_0_0_1_n_n.lhsIdx_val_of_single rfl _ _).trans hk)
  have er : dot_S4096x64_S64x32_S4096x32_1_0_0_1_n_n.rhsIdx (ix2 p c) ((contrEquiv1 dot_S4096x64_S64x32_S4096x32_1_0_0_1_n_n 64 rfl rfl).symm k) = ix2 k c := funext fun a => Fin.ext (by
    match a with
    | ⟨0, _⟩ => exact (dot_S4096x64_S64x32_S4096x32_1_0_0_1_n_n.rhsIdx_val_of_single rfl _ _).trans hk
    | ⟨1, _⟩ => exact mm64_r1 _ _)
  rw [el, er]

theorem mm32_l0 (i : S4096x1.Idx) (q : dot_S4096x32_S32x1_S4096x1_1_0_0_1_n_n.contr.Idx) : (dot_S4096x32_S32x1_S4096x1_1_0_0_1_n_n.lhsIdx i q 0).val = (i 0).val := by
  unfold DotDims.lhsIdx
  rw [dif_neg (show ¬(0 : Fin S4096x32.rank) ∈ dot_S4096x32_S32x1_S4096x1_1_0_0_1_n_n.lhsBatch by decide), dif_pos (show (0 : Fin S4096x32.rank) ∈ dot_S4096x32_S32x1_S4096x1_1_0_0_1_n_n.lhsNonContracting by decide)]
  rfl
theorem mm32_r1 (i : S4096x1.Idx) (q : dot_S4096x32_S32x1_S4096x1_1_0_0_1_n_n.contr.Idx) : (dot_S4096x32_S32x1_S4096x1_1_0_0_1_n_n.rhsIdx i q 1).val = (i 1).val := by
  unfold DotDims.rhsIdx
  rw [dif_neg (show ¬(1 : Fin S32x1.rank) ∈ dot_S4096x32_S32x1_S4096x1_1_0_0_1_n_n.rhsBatch by decide), dif_pos (show (1 : Fin S32x1.rank) ∈ dot_S4096x32_S32x1_S4096x1_1_0_0_1_n_n.rhsNonContracting by decide)]
  rfl

/-- The matrix product of a [4096, 32] block with a [32, 1] matrix into a zero accumulator, read at (p, c): the sum over the
    32 contracted positions of row p against column c. -/
theorem mm32 (A : FVec Ideal S4096x32 .bf16) (B : FVec Ideal S32x1 .bf16) (p : Fin 4096) (c : Fin 1) :
    matmul dot_S4096x32_S32x1_S4096x1_1_0_0_1_n_n none A B (constant S4096x1 .f32 0x00000000#32) (ix2 p c) = ∑ k : Fin 32, A (ix2 p k) * B (ix2 k c) := by
  simp only [matmul]
  rw [Ideal.matmul_constant_zero_apply, ← Equiv.sum_comp (contrEquiv1 dot_S4096x32_S32x1_S4096x1_1_0_0_1_n_n 32 rfl rfl).symm]
  refine Finset.sum_congr rfl fun k _ => ?_
  have hk := contrEquiv1_symm_val dot_S4096x32_S32x1_S4096x1_1_0_0_1_n_n 32 rfl rfl k
  have el : dot_S4096x32_S32x1_S4096x1_1_0_0_1_n_n.lhsIdx (ix2 p c) ((contrEquiv1 dot_S4096x32_S32x1_S4096x1_1_0_0_1_n_n 32 rfl rfl).symm k) = ix2 p k := funext fun a => Fin.ext (by
    match a with
    | ⟨0, _⟩ => exact mm32_l0 _ _
    | ⟨1, _⟩ => exact (dot_S4096x32_S32x1_S4096x1_1_0_0_1_n_n.lhsIdx_val_of_single rfl _ _).trans hk)
  have er : dot_S4096x32_S32x1_S4096x1_1_0_0_1_n_n.rhsIdx (ix2 p c) ((contrEquiv1 dot_S4096x32_S32x1_S4096x1_1_0_0_1_n_n 32 rfl rfl).symm k) = ix2 k c := funext fun a => Fin.ext (by
    match a with
    | ⟨0, _⟩ => exact (dot_S4096x32_S32x1_S4096x1_1_0_0_1_n_n.rhsIdx_val_of_single rfl _ _).trans hk
    | ⟨1, _⟩ => exact mm32_r1 _ _)
  rw [el, er]

end Cert.KernelIdeal.Row

end
-- ==== Proof.KernelRow.lean ====
/-
  The kernel body's arithmetic on one block of 4096 tokens, read one token at a time.

  The body's value is rewritten as a few named stages — the four feature columns, the column of row means, the deviations,
  the normalised features, the layer numbers, the one-hot matrix and its product with the 24 × 8 table, the joined row of five,
  and the three affine layers — and each stage is read at row p: row p of every stage depends on row p of the block only, and
  is the corresponding piece of the per-token score.
-/
import proofs.«177214_j15848429322274_1_alg».proof.Proof.Gen.KernelIdeal.Skeleton
import proofs.«177214_j15848429322274_1_alg».proof.Proof.RouterRow
import proofs.«177214_j15848429322274_1_alg».proof.Proof.Cols
import proofs.«177214_j15848429322274_1_alg».proof.Proof.KernelProducts
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Row

open Cert.KernelIdeal Cert.KernelIdeal.Gen Idealize.ShloMosaic Idealize.ShloMosaic.ValueIdx Cert.RouterRow Cert.Cols

/-! ## The position column and the features -/

/-- The position of token p is the block's entry (p, 4). -/
theorem pos_at (x0 : FVec Ideal S4096x5 .f32) (p : Fin 4096) : k0_pay3 x0 (ix1 p) = x0 (ix2 p (4 : Fin 5)) := by
  unfold k0_pay3 k0_pay2
  rw [shapeCast_self]
  refine (cast_col_vec _ _ p).trans ?_
  exact slice2_axis1_apply 4 x0 _ p (0 : Fin 1) (4 : Fin 5) rfl

/-- The same as a column. -/
theorem poscol_at (x0 : FVec Ideal S4096x5 .f32) (p : Fin 4096) (u : Fin 1) :
    k0_pay5 x0 (ix2 p u) = x0 (ix2 p (4 : Fin 5)) := by
  unfold k0_pay5
  exact (cast_vec_col _ _ p u).trans (pos_at x0 p)

/-- The four feature columns of a block. -/
def featsV (x0 : FVec Ideal S4096x5 .f32) : FVec Ideal S4096x4 .f32 :=
  extractStridedSlice S4096x4 ![0, 0] (k0_pay2 x0) slices_S4096x5_o0_0_S4096x4

theorem featsV_at (x0 : FVec Ideal S4096x5 .f32) (p : Fin 4096) (k : Fin 4) :
    featsV x0 (ix2 p k) = feats (fun j => x0 (ix2 p j)) k := by
  unfold featsV k0_pay2 feats
  rw [shapeCast_self]
  exact slice2_axis1_apply 0 x0 _ p k ⟨k.val, by omega⟩ (by show k.val = 0 + k.val; omega)

/-! ## Mean, deviation, variance, normalisation -/

/-- A row's sum over its four entries. -/
theorem rowsum_at (f : FVec Ideal S4096x4 .f32) (hφ : FKind.Formats .f32)
    (hacc : (0x00000000#32 : BitVec FTy.f32.bits) = FKind.add.neutral .f32 hφ) (p : Fin 4096) :
    multiReduction .add [1] S4096 f 0x00000000#32 reduces_S4096x4_S4096 hφ hacc (ix1 p) = ∑ k : Fin 4, f (ix2 p k) := by
  refine (Ideal.multiReduction_add_single f 0x00000000#32 reduces_S4096x4_S4096 hφ hacc (ix1 p)).trans ?_
  refine Finset.sum_congr rfl fun k _ => congrArg f ?_
  funext a
  apply Fin.ext
  match a with
  | ⟨0, _⟩ => rfl
  | ⟨1, _⟩ => rfl

/-- The column of row means: each row's sum over 4. -/
def meanV (f : FVec Ideal S4096x4 .f32) : FVec Ideal S4096x1 .f32 :=
  divf (shapeCast S4096x1 (multiReduction .add [1] S4096 f 0x00000000#32 reduces_S4096x4_S4096 (.inl rfl) rfl) shapeCasts_S4096_S4096x1)
    (broadcast S4096x1 (Scalar.ofBits .f32 0x40800000#32))

theorem meanV_at (f : FVec Ideal S4096x4 .f32) (p : Fin 4096) (u : Fin 1) :
    meanV f (ix2 p u) = mean4 (fun k => f (ix2 p k)) := by
  unfold meanV mean4
  exact congrArg (fun s => Ideal.div s (Ideal.ofBits .f32 0x40800000#32))
    ((cast_vec_col _ _ p u).trans (rowsum_at f _ _ p))

/-- The deviations from the row mean. -/
def devV (f : FVec Ideal S4096x4 .f32) : FVec Ideal S4096x4 .f32 :=
  subf f (broadcastTo S4096x4 (meanV f) broadcasts_S4096x1_S4096x4)

theorem devV_at (f : FVec Ideal S4096x4 .f32) (p : Fin 4096) (k : Fin 4) :
    devV f (ix2 p k) = f (ix2 p k) - mean4 (fun k => f (ix2 p k)) := by
  unfold devV
  exact congrArg (fun s => f (ix2 p k) - s) ((bcast_col (by decide) _ _ p k).trans (meanV_at f p 0))

/-- The normalised features: the deviation times the reciprocal square root of the offset variance. -/
def normV (f : FVec Ideal S4096x4 .f32) : FVec Ideal S4096x4 .f32 :=
  mulf (devV f) (broadcastTo S4096x4
    (rsqrt (addf (meanV (mulf (devV f) (devV f))) (broadcast S4096x1 (Scalar.ofBits .f32 0x3727C5AC#32))))
    broadcasts_S4096x1_S4096x4)

theorem normV_at (f : FVec Ideal S4096x4 .f32) (p : Fin 4096) (j : Fin 4) :
    normV f (ix2 p j) = normed (fun k => f (ix2 p k)) j := by
  unfold normV normed var4
  have hv : meanV (mulf (devV f) (devV f)) (ix2 p (0 : Fin 1))
      = mean4 (fun k => (f (ix2 p k) - mean4 (fun k => f (ix2 p k))) * (f (ix2 p k) - mean4 (fun k => f (ix2 p k)))) := by
    rw [meanV_at]
    refine congrArg mean4 (funext fun k => ?_)
    show devV f (ix2 p k) * devV f (ix2 p k) = _
    rw [devV_at]
  show devV f (ix2 p j) * broadcastTo S4096x4 _ broadcasts_S4096x1_S4096x4 (ix2 p j) = _
  rw [devV_at, bcast_col (by decide) _ _ p j]
  show _ * Ideal.rsqrt (meanV (mulf (devV f) (devV f)) (ix2 p (0 : Fin 1)) + Ideal.ofBits .f32 0x3727C5AC#32) = _
  rw [hv]
  rfl

/-! ## The layer numbers and the table rows they select -/

/-- The layer number of every token of the block. -/
def idsV (x0 : FVec Ideal S4096x5 .f32) : IVec S4096 32 :=
  minsi (broadcast S4096 (23#32 : BitVec 32)) (maxsi (broadcast S4096 (0#32 : BitVec 32))
    (fptosi 32 (mulf (k0_pay3 (F := Ideal) x0) (broadcast S4096 (Scalar.ofBits .f32 0x41C00000#32)))))

theorem idsV_at (x0 : FVec Ideal S4096x5 .f32) (p : Fin 4096) : idsV x0 (ix1 p) = layerId (x0 (ix2 p (4 : Fin 5))) := by
  unfold idsV layerId
  rw [← pos_at x0 p]
  rfl

/-- The one-hot matrix: entry (p, k) is 1 when token p's layer number is k, else 0. -/
def onehotV (ids : IVec S4096 32) : FVec Ideal S4096x24 .bf16 :=
  truncf .bf16 (sitofp .f32 (extui 32 (cmpi .eq
    (broadcastTo S4096x24 (shapeCast S4096x1 ids shapeCasts_S4096_S4096x1) broadcasts_S4096x1_S4096x24)
    (iota .tc S4096x24 32 [1] iota_S4096x24_d1_w32)) natLt_1_32)) bitsLt_bf16_f32

theorem onehotV_at (ids : IVec S4096 32) (p : Fin 4096) (k : Fin 24) :
    onehotV ids (ix2 p k) = if ids (ix1 p) = BitVec.ofNat 32 k.val then 1 else 0 := by
  unfold onehotV
  show ((((IntOp.cmpi .eq (broadcastTo S4096x24 (shapeCast S4096x1 ids shapeCasts_S4096_S4096x1) broadcasts_S4096x1_S4096x24 (ix2 p k))
    (iota .tc S4096x24 32 [1] iota_S4096x24_d1_w32 (ix2 p k))).setWidth 32).toInt : ℝ) : EReal) = _
  rw [bcast_col (by decide) _ _ p k, cast_vec_col _ _ p 0, iota_single_apply]
  show ((((BitVec.ofBool (ids (ix1 p) == BitVec.ofNat 32 k.val)).setWidth 32).toInt : ℝ) : EReal) = _
  by_cases h : ids (ix1 p) = BitVec.ofNat 32 k.val
  · rw [if_pos h, beq_iff_eq.mpr h]; simp
  · rw [if_neg h, beq_eq_false_iff_ne.mpr h]; simp

/-- A 32-bit word in [0, 23] read signed equals the word of k < 24 exactly when its value is k. -/
theorem word_eq_iff (z : BitVec 32) (h0 : 0 ≤ z.toInt) (h23 : z.toInt ≤ 23) (k : Fin 24) :
    z = BitVec.ofNat 32 k.val ↔ k.val = z.toInt.toNat := by
  have hk := k.isLt
  have hz := z.isLt
  rw [BitVec.toInt_eq_toNat_cond] at h0 h23 ⊢
  constructor
  · intro h
    have : z.toNat = k.val := by rw [h, BitVec.toNat_ofNat]; omega
    split_ifs <;> omega
  · intro h
    apply BitVec.eq_of_toNat_eq
    rw [BitVec.toNat_ofNat]
    split_ifs at h h0 h23 <;> omega

/-- The one-hot product with the 24 × 8 table: row p is the table's row of token p's layer number. -/
def gatherV (ids : IVec S4096 32) (x1 : FVec Ideal S24x8 .f32) : FVec Ideal S4096x8 .f32 :=
  matmul dot_S4096x24_S24x8_S4096x8_1_0_0_1_n_n none (onehotV ids)
    (truncf .bf16 (shapeCast S24x8 x1 shapeCasts_S24x8_S24x8) bitsLt_bf16_f32) (constant S4096x8 .f32 0x00000000#32)

theorem gatherV_at (ids : IVec S4096 32) (x1 : FVec Ideal S24x8 .f32) (p : Fin 4096) (c : Fin 8)
    (h0 : 0 ≤ (ids (ix1 p)).toInt) (h23 : (ids (ix1 p)).toInt ≤ 23) :
    gatherV ids x1 (ix2 p c) = x1 (ix2 (⟨(ids (ix1 p)).toInt.toNat, by omega⟩ : Fin 24) c) := by
  unfold gatherV
  rw [mm24, shapeCast_self]
  have e : ∀ k : Fin 24, onehotV ids (ix2 p k) * (truncf .bf16 x1 bitsLt_bf16_f32 : FVec Ideal S24x8 .bf16) (ix2 k c)
      = if k = (⟨(ids (ix1 p)).toInt.toNat, by omega⟩ : Fin 24) then x1 (ix2 k c) else 0 := by
    intro k
    rw [onehotV_at]
    show (if ids (ix1 p) = BitVec.ofNat 32 k.val then (1 : EReal) else 0) * x1 (ix2 k c) = _
    by_cases h : ids (ix1 p) = BitVec.ofNat 32 k.val
    · rw [if_pos h, if_pos (Fin.ext ((word_eq_iff _ h0 h23 k).mp h)), one_mul]
    · rw [if_neg h, if_neg (fun hk => h ((word_eq_iff _ h0 h23 k).mpr (congrArg Fin.val hk))), zero_mul]
  rw [Finset.sum_congr rfl fun k _ => e k, Finset.sum_ite_eq' Finset.univ, if_pos (Finset.mem_univ _)]

/-! ## The scaled and shifted features -/

/-- The body's first value: the normalised features times the selected row's first four entries plus its last four. -/
theorem pay4_eq (x0 : FVec Ideal S4096x5 .f32) (x1 : FVec Ideal S24x8 .f32) :
    k0_pay4 x0 x1 = addf (mulf (normV (featsV x0))
        (extractStridedSlice S4096x4 ![0, 0] (gatherV (idsV x0) x1) slices_S4096x8_o0_0_S4096x4))
      (extractStridedSlice S4096x4 ![0, 4] (gatherV (idsV x0) x1) slices_S4096x8_o0_4_S4096x4) := rfl

theorem pay4_at (x0 : FVec Ideal S4096x5 .f32) (x1 : FVec Ideal S24x8 .f32) (p : Fin 4096) (j : Fin 4) :
    k0_pay4 (F := Ideal) x0 x1 (ix2 p j) = normed (feats fun k => x0 (ix2 p k)) j
        * x1 (ix2 (layerIdx (x0 (ix2 p (4 : Fin 5)))) ⟨j.val, by omega⟩)
      + x1 (ix2 (layerIdx (x0 (ix2 p (4 : Fin 5)))) ⟨4 + j.val, by omega⟩) := by
  rw [pay4_eq]
  have hr := layerId_range (x0 (ix2 p (4 : Fin 5)))
  have hid := idsV_at x0 p
  show normV (featsV x0) (ix2 p j) * extractStridedSlice S4096x4 ![0, 0] (gatherV (idsV x0) x1) slices_S4096x8_o0_0_S4096x4 (ix2 p j)
    + extractStridedSlice S4096x4 ![0, 4] (gatherV (idsV x0) x1) slices_S4096x8_o0_4_S4096x4 (ix2 p j) = _
  rw [normV_at, slice2_axis1_apply 0 _ _ p j (⟨j.val, by omega⟩ : Fin 8) (by show j.val = 0 + j.val; omega),
    slice2_axis1_apply 4 _ _ p j (⟨4 + j.val, by omega⟩ : Fin 8) rfl,
    gatherV_at _ _ _ _ (by rw [hid]; exact hr.1) (by rw [hid]; exact hr.2),
    gatherV_at _ _ _ _ (by rw [hid]; exact hr.1) (by rw [hid]; exact hr.2)]
  have hf : (fun k => featsV x0 (ix2 p k)) = feats fun k => x0 (ix2 p k) := funext fun k => featsV_at x0 p k
  have hi : (⟨((idsV x0) (ix1 p)).toInt.toNat, by rw [hid]; omega⟩ : Fin 24) = layerIdx (x0 (ix2 p (4 : Fin 5))) :=
    Fin.ext (by show ((idsV x0) (ix1 p)).toInt.toNat = (layerId (x0 (ix2 p (4 : Fin 5)))).toInt.toNat; rw [hid])
  rw [hf, hi]

/-! ## The joined row of five and the three affine layers -/

/-- The scaled features joined with the position column. -/
def joinV (v44 : FVec Ideal S4096x4 .f32) (v45 : FVec Ideal S4096x1 .f32) : FVec Ideal S4096x5 .bf16 :=
  truncf .bf16 (concatenate S4096x5 1 [⟨S4096x4, v44⟩, ⟨S4096x1, v45⟩] concatenates_S4096x4_S4096x1_S4096x5_d1) bitsLt_bf16_f32

theorem joinV_at (v44 : FVec Ideal S4096x4 .f32) (v45 : FVec Ideal S4096x1 .f32) (p : Fin 4096) (j : Fin 5) :
    joinV v44 v45 (ix2 p j) = if h : j.val < 4 then v44 (ix2 p ⟨j.val, h⟩) else v45 (ix2 p (0 : Fin 1)) := by
  unfold joinV
  show concatenate S4096x5 1 [⟨S4096x4, v44⟩, ⟨S4096x1, v45⟩] concatenates_S4096x4_S4096x1_S4096x5_d1 (ix2 p j) = _
  by_cases h : j.val < 4
  · rw [dif_pos h]
    exact concatenate_pair_apply_left (1 : Fin 2) v44 v45 concatenates_S4096x4_S4096x1_S4096x5_d1 (ix2 p j) rfl
      (ix2 p ⟨j.val, h⟩) (fun b => by match b with | ⟨0, _⟩ => rfl | ⟨1, _⟩ => rfl)
  · rw [dif_neg h]
    have hj : j.val = 4 := by have := j.isLt; omega
    exact concatenate_pair_apply_right (1 : Fin 2) v44 v45 concatenates_S4096x4_S4096x1_S4096x5_d1 (ix2 p j) rfl rfl
      (ix2 p (0 : Fin 1)) (fun b hb => by
        match b with
        | ⟨0, _⟩ => rfl
        | ⟨1, _⟩ => exact absurd rfl hb)
      (by show 0 + 4 = j.val; omega)

/-- The first layer with its maximum with 0: [4096, 5] against the 64 × 5 weights, plus the bias. -/
def layer1V (z : FVec Ideal S4096x5 .bf16) (x2 : FVec Ideal S64x5 .f32) (x3 : FVec Ideal S64 .f32) : FVec Ideal S4096x64 .bf16 :=
  truncf .bf16 (maximumf (addf
      (matmul dot_S4096x5_S5x64_S4096x64_1_0_0_1_n_n none z
        (transpose S5x64 [1, 0] (truncf .bf16 x2 bitsLt_bf16_f32) transposes_S64x5_p1_0_S5x64) (constant S4096x64 .f32 0x00000000#32))
      (broadcastTo S4096x64 (shapeCast S1x64 x3 shapeCasts_S64_S1x64) broadcasts_S1x64_S4096x64))
    (broadcast S4096x64 (Scalar.ofBits .f32 0x00000000#32))) bitsLt_bf16_f32

theorem layer1V_at (z : FVec Ideal S4096x5 .bf16) (x2 : FVec Ideal S64x5 .f32) (x3 : FVec Ideal S64 .f32) (p : Fin 4096) (o : Fin 64) :
    layer1V z x2 x3 (ix2 p o) = max (dense (fun j => z (ix2 p j)) (fun a b => x2 (ix2 a b)) (fun a => x3 (ix1 a)) o) 0 := by
  unfold layer1V dense
  show max (matmul dot_S4096x5_S5x64_S4096x64_1_0_0_1_n_n none z _ (constant S4096x64 .f32 0x00000000#32) (ix2 p o)
    + broadcastTo S4096x64 (shapeCast S1x64 x3 shapeCasts_S64_S1x64) broadcasts_S1x64_S4096x64 (ix2 p o)) (Ideal.ofBits .f32 0x00000000#32) = _
  rw [mm5, broadcastTo_1b_ab_apply, shapeCast_a_1a_apply, Ideal.ofBits_zero_f32]
  refine congrArg (fun s => max (s + x3 (ix1 o)) 0) (Finset.sum_congr rfl fun k _ => ?_)
  exact congrArg (fun s => z (ix2 p k) * s) (transpose_ix2_apply (x2 : FVec Ideal S64x5 .f32) _ k o)

/-- The second layer with its maximum with 0: [4096, 64] against the 32 × 64 weights, plus the bias. -/
def layer2V (z : FVec Ideal S4096x64 .bf16) (x4 : FVec Ideal S32x64 .f32) (x5 : FVec Ideal S32 .f32) : FVec Ideal S4096x32 .bf16 :=
  truncf .bf16 (maximumf (addf
      (matmul dot_S4096x64_S64x32_S4096x32_1_0_0_1_n_n none z
        (transpose S64x32 [1, 0] (truncf .bf16 x4 bitsLt_bf16_f32) transposes_S32x64_p1_0_S64x32) (constant S4096x32 .f32 0x00000000#32))
      (broadcastTo S4096x32 (shapeCast S1x32 x5 shapeCasts_S32_S1x32) broadcasts_S1x32_S4096x32))
    (broadcast S4096x32 (Scalar.ofBits .f32 0x00000000#32))) bitsLt_bf16_f32

theorem layer2V_at (z : FVec Ideal S4096x64 .bf16) (x4 : FVec Ideal S32x64 .f32) (x5 : FVec Ideal S32 .f32) (p : Fin 4096) (o : Fin 32) :
    layer2V z x4 x5 (ix2 p o) = max (dense (fun j => z (ix2 p j)) (fun a b => x4 (ix2 a b)) (fun a => x5 (ix1 a)) o) 0 := by
  unfold layer2V dense
  show max (matmul dot_S4096x64_S64x32_S4096x32_1_0_0_1_n_n none z _ (constant S4096x32 .f32 0x00000000#32) (ix2 p o)
    + broadcastTo S4096x32 (shapeCast S1x32 x5 shapeCasts_S32_S1x32) broadcasts_S1x32_S4096x32 (ix2 p o)) (Ideal.ofBits .f32 0x00000000#32) = _
  rw [mm64, broadcastTo_1b_ab_apply, shapeCast_a_1a_apply, Ideal.ofBits_zero_f32]
  refine congrArg (fun s => max (s + x5 (ix1 o)) 0) (Finset.sum_congr rfl fun k _ => ?_)
  exact congrArg (fun s => z (ix2 p k) * s) (transpose_ix2_apply (x4 : FVec Ideal S32x64 .f32) _ k o)

/-- The third layer: [4096, 32] against the 1 × 32 weights, plus the bias. -/
def layer3V (z : FVec Ideal S4096x32 .bf16) (x6 : FVec Ideal S1x32 .f32) (x7 : FVec Ideal S1 .f32) : FVec Ideal S4096x1 .f32 :=
  addf (matmul dot_S4096x32_S32x1_S4096x1_1_0_0_1_n_n none z
      (transpose S32x1 [1, 0] (truncf .bf16 x6 bitsLt_bf16_f32) transposes_S1x32_p1_0_S32x1) (constant S4096x1 .f32 0x00000000#32))
    (broadcastTo S4096x1 (shapeCast S1x1 x7 shapeCasts_S1_S1x1) broadcasts_S1x1_S4096x1)

theorem layer3V_at (z : FVec Ideal S4096x32 .bf16) (x6 : FVec Ideal S1x32 .f32) (x7 : FVec Ideal S1 .f32) (p : Fin 4096) (o : Fin 1) :
    layer3V z x6 x7 (ix2 p o) = dense (fun j => z (ix2 p j)) (fun a b => x6 (ix2 a b)) (fun a => x7 (ix1 a)) o := by
  unfold layer3V dense
  show matmul dot_S4096x32_S32x1_S4096x1_1_0_0_1_n_n none z _ (constant S4096x1 .f32 0x00000000#32) (ix2 p o)
    + broadcastTo S4096x1 (shapeCast S1x1 x7 shapeCasts_S1_S1x1) broadcasts_S1x1_S4096x1 (ix2 p o) = _
  rw [mm32, broadcastTo_1b_ab_apply, shapeCast_a_1a_apply]
  refine congrArg (fun s => s + x7 (ix1 o)) (Finset.sum_congr rfl fun k _ => ?_)
  exact congrArg (fun s => z (ix2 p k) * s) (transpose_ix2_apply (x6 : FVec Ideal S1x32 .f32) _ k o)

/-- The body's stored value is the three layers applied to the joined rows, as a vector of 4096 scores. -/
theorem pay1_eq (v44 : FVec Ideal S4096x4 .f32) (v45 : FVec Ideal S4096x1 .f32) (x2 : FVec Ideal S64x5 .f32) (x3 : FVec Ideal S64 .f32)
    (x4 : FVec Ideal S32x64 .f32) (x5 : FVec Ideal S32 .f32) (x6 : FVec Ideal S1x32 .f32) (x7 : FVec Ideal S1 .f32) :
    k0_pay1 (F := Ideal) v44 v45 x2 x3 x4 x5 x6 x7
      = shapeCast S4096 (layer3V (layer2V (layer1V (joinV v44 v45) x2 x3) x4 x5) x6 x7) shapeCasts_S4096x1_S4096 := rfl

/-! ## One block's scores -/

/-- What the body stores for token p of a block: the score of the block's row p, the two 24 × 4 tables read as the
    left and right halves of the 24 × 8 table. -/
theorem block_at (x0 : FVec Ideal S4096x5 .f32) (x1 : FVec Ideal S24x8 .f32) (x2 : FVec Ideal S64x5 .f32) (x3 : FVec Ideal S64 .f32)
    (x4 : FVec Ideal S32x64 .f32) (x5 : FVec Ideal S32 .f32) (x6 : FVec Ideal S1x32 .f32) (x7 : FVec Ideal S1 .f32) (p : Fin 4096) :
    k0_pay1 (F := Ideal) (k0_pay4 x0 x1) (k0_pay5 x0) x2 x3 x4 x5 x6 x7 (ix1 p)
      = score (fun j => x0 (ix2 p j)) (fun a b => x1 (ix2 a ⟨b.val, by omega⟩)) (fun a b => x1 (ix2 a ⟨4 + b.val, by omega⟩))
          (fun a b => x2 (ix2 a b)) (fun a => x3 (ix1 a)) (fun a b => x4 (ix2 a b)) (fun a => x5 (ix1 a))
          (fun a b => x6 (ix2 a b)) (fun a => x7 (ix1 a)) := by
  rw [pay1_eq, cast_col_vec, layer3V_at]
  unfold score
  refine congrArg (fun z => dense z _ _ 0) (funext fun k2 => ?_)
  rw [layer2V_at]
  refine congrArg (fun z => max (dense z _ _ k2) 0) (funext fun k1 => ?_)
  rw [layer1V_at]
  refine congrArg (fun z => max (dense z _ _ k1) 0) (funext fun j => ?_)
  rw [joinV_at]
  unfold xnorm
  by_cases h : j.val < 4
  · rw [dif_pos h, dif_pos h, pay4_at]
  · rw [dif_neg h, dif_neg h, poscol_at]

end Cert.KernelIdeal.Row

end
-- ==== Proof.KernelArray.lean ====
/-
  From one block's scores to the whole array of 2097152 scores.

  Grid point t works on tokens 4096 t … 4096 t + 4095: its first window's block is those rows of the [2097152, 5] token array,
  its other input windows hold the whole parameter arrays at every point, and it writes back entries 4096 t … 4096 t + 4095
  of the score array. The 512 blocks written back tile the array, so after the region the array holds, at every token n, the
  score of row n. The reshape after the region lays these out as [256, 8192] in the same order.
-/
import proofs.«177214_j15848429322274_1_alg».proof.Proof.Gen.KernelIdeal.Frame
import proofs.«177214_j15848429322274_1_alg».proof.Proof.KernelRow
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Arr

open Cert.KernelIdeal Cert.KernelIdeal.Gen Cert.KernelIdeal.Row Idealize.ShloMosaic.ValueIdx Cert.RouterRow

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl

/-- What the body leaves in the output's buffer is its stored value of the loaded blocks. -/
theorem out_eq (x0 : Vec Ideal S4096x5 .f32) (x1 : Vec Ideal S24x8 .f32) (x2 : Vec Ideal S64x5 .f32) (x3 : Vec Ideal S64 .f32)
    (x4 : Vec Ideal S32x64 .f32) (x5 : Vec Ideal S32 .f32) (x6 : Vec Ideal S1x32 .f32) (x7 : Vec Ideal S1 .f32) :
    out0_8 x0 x1 x2 x3 x4 x5 x6 x7 = k0_pay1 (F := Ideal) (k0_pay4 x0 x1) (k0_pay5 x0) x2 x3 x4 x5 x6 x7 := by
  unfold out0_8
  rw [View.canon_unit_zero hz1]
  simp only [View.ld_unit_zero (S := S4096x5) hz2, View.ld_unit_zero (S := S24x8) hz2, View.ld_unit_zero (S := S64x5) hz2,
    View.ld_unit_zero (S := S64) hz1, View.ld_unit_zero (S := S32x64) hz2, View.ld_unit_zero (S := S32) hz1,
    View.ld_unit_zero (S := S1x32) hz2, View.ld_unit_zero (S := S1) hz1]

/-- The printed index maps over the grid: the token window and the score window move one block per point, the parameter
    windows stay at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 1) = t.val :=
  (by decide +kernel : ∀ t : Fin grid0.N, _)

/-- The token window's block at point t is rows 4096 t … 4096 t + 4095 of the token array. -/
theorem iblk0_at (c : Dev nD) (t : Fin cfg0.N) (p : Fin 4096) (j : Fin 5) (n : Fin 2097152) (hn : n.val = t.val * 4096 + p.val) :
    (iblk m c 0 t : Vec Ideal S4096x5 .f32) (ix2 p j) = (V m c main_v0 : S2097152x5.Idx → EReal) (ix2 n j) := by
  have hi := idx_facts t
  unfold iblk
  rw [View.read_apply]
  show V m c main_v0 _ = V m c main_v0 _
  refine congrArg (V m c main_v0) ?_
  funext a
  apply Fin.ext
  match a with
  | ⟨0, _⟩ => show win0_0.index t 0 * 4096 + 1 * p.val = n.val; rw [hi.1, hn]; omega
  | ⟨1, _⟩ => show win0_0.index t 1 * 5 + 1 * j.val = j.val; rw [hi.2.1]; omega

/-- Window 1 holds its whole array at every point. -/
theorem iblk1_eq (c : Dev nD) (t : Fin cfg0.N) : (iblk m c 1 t : Vec Ideal S24x8 .f32) = V m c main_v1 := by
  have hi := idx_facts t
  funext y
  unfold iblk
  rw [View.read_apply]
  show V m c main_v1 _ = V m c main_v1 y
  refine congrArg (V m c main_v1) ?_
  funext a
  apply Fin.ext
  match a with
  | ⟨0, _⟩ => show win0_1.index t 0 * 24 + 1 * (y 0).val = (y 0).val; rw [hi.2.2.1]; omega
  | ⟨1, _⟩ => show win0_1.index t 1 * 8 + 1 * (y 1).val = (y 1).val; rw [hi.2.2.2.1]; omega

/-- Window 2 holds its whole array at every point. -/
theorem iblk2_eq (c : Dev nD) (t : Fin cfg0.N) : (iblk m c 2 t : Vec Ideal S64x5 .f32) = V m c main_arg3 := by
  have hi := idx_facts t
  funext y
  unfold iblk
  rw [View.read_apply]
  show V m c main_arg3 _ = V m c main_arg3 y
  refine congrArg (V m c main_arg3) ?_
  funext a
  apply Fin.ext
  match a with
  | ⟨0, _⟩ => show win0_2.index t 0 * 64 + 1 * (y 0).val = (y 0).val; rw [hi.2.2.2.2.1]; omega
  | ⟨1, _⟩ => show win0_2.index t 1 * 5 + 1 * (y 1).val = (y 1).val; rw [hi.2.2.2.2.2.1]; omega

/-- Window 3 holds its whole array at every point. -/
theorem iblk3_eq (c : Dev nD) (t : Fin cfg0.N) : (iblk m c 3 t : Vec Ideal S64 .f32) = V m c main_arg4 := by
  have hi := idx_facts t
  funext y
  unfold iblk
  rw [View.read_apply]
  show V m c main_arg4 _ = V m c main_arg4 y
  refine congrArg (V m c main_arg4) ?_
  funext a
  apply Fin.ext
  match a with
  | ⟨0, _⟩ => show win0_3.index t 0 * 64 + 1 * (y 0).val = (y 0).val; rw [hi.2.2.2.2.2.2.1]; omega

/-- Window 4 holds its whole array at every point. -/
theorem iblk4_eq (c : Dev nD) (t : Fin cfg0.N) : (iblk m c 4 t : Vec Ideal S32x64 .f32) = V m c main_arg5 := by
  have hi := idx_facts t
  funext y
  unfold iblk
  rw [View.read_apply]
  show V m c main_arg5 _ = V m c main_arg5 y
  refine congrArg (V m c main_arg5) ?_
  funext a
  apply Fin.ext
  match a with
  | ⟨0, _⟩ => show win0_4.index t 0 * 32 + 1 * (y 0).val = (y 0).val; rw [hi.2.2.2.2.2.2.2.1]; omega
  | ⟨1, _⟩ => show win0_4.index t 1 * 64 + 1 * (y 1).val = (y 1).val; rw [hi.2.2.2.2.2.2.2.2.1]; omega

/-- Window 5 holds its whole array at every point. -/
theorem iblk5_eq (c : Dev nD) (t : Fin cfg0.N) : (iblk m c 5 t : Vec Ideal S32 .f32) = V m c main_arg6 := by
  have hi := idx_facts t
  funext y
  unfold iblk
  rw [View.read_apply]
  show V m c main_arg6 _ = V m c main_arg6 y
  refine congrArg (V m c main_arg6) ?_
  funext a
  apply Fin.ext
  match a with
  | ⟨0, _⟩ => show win0_5.index t 0 * 32 + 1 * (y 0).val = (y 0).val; rw [hi.2.2.2.2.2.2.2.2.2.1]; omega

/-- Window 6 holds its whole array at every point. -/
theorem iblk6_eq (c : Dev nD) (t : Fin cfg0.N) : (iblk m c 6 t : Vec Ideal S1x32 .f32) = V m c main_arg7 := by
  have hi := idx_facts t
  funext y
  unfold iblk
  rw [View.read_apply]
  show V m c main_arg7 _ = V m c main_arg7 y
  refine congrArg (V m c main_arg7) ?_
  funext a
  apply Fin.ext
  match a with
  | ⟨0, _⟩ => show win0_6.index t 0 * 1 + 1 * (y 0).val = (y 0).val; rw [hi.2.2.2.2.2.2.2.2.2.2.1]; omega
  | ⟨1, _⟩ => show win0_6.index t 1 * 32 + 1 * (y 1).val = (y 1).val; rw [hi.2.2.2.2.2.2.2.2.2.2.2.1]; omega

/-- Window 7 holds its whole array at every point. -/
theorem iblk7_eq (c : Dev nD) (t : Fin cfg0.N) : (iblk m c 7 t : Vec Ideal S1 .f32) = V m c main_arg8 := by
  have hi := idx_facts t
  funext y
  unfold iblk
  rw [View.read_apply]
  show V m c main_arg8 _ = V m c main_arg8 y
  refine congrArg (V m c main_arg8) ?_
  funext a
  apply Fin.ext
  match a with
  | ⟨0, _⟩ => show win0_7.index t 0 * 1 + 1 * (y 0).val = (y 0).val; rw [hi.2.2.2.2.2.2.2.2.2.2.2.2.1]; omega

/-- The score array the region leaves, from the arrays the region finds: at token n the score of row n of the token array,
    the two 24 × 4 tables read as the halves of the 24 × 8 table. -/
def scoresOf (c : Dev nD) : S2097152.Idx → EReal := fun n =>
  score (fun j => (V m c main_v0 : S2097152x5.Idx → EReal) (ix2 (⟨(n 0).val, (n 0).isLt⟩ : Fin 2097152) j))
    (fun a b => (V m c main_v1 : S24x8.Idx → EReal) (ix2 a ⟨b.val, by omega⟩))
    (fun a b => (V m c main_v1 : S24x8.Idx → EReal) (ix2 a ⟨4 + b.val, by omega⟩))
    (fun a b => (V m c main_arg3 : S64x5.Idx → EReal) (ix2 a b)) (fun a => (V m c main_arg4 : S64.Idx → EReal) (ix1 a))
    (fun a b => (V m c main_arg5 : S32x64.Idx → EReal) (ix2 a b)) (fun a => (V m c main_arg6 : S32.Idx → EReal) (ix1 a))
    (fun a b => (V m c main_arg7 : S1x32.Idx → EReal) (ix2 a b)) (fun a => (V m c main_arg8 : S1.Idx → EReal) (ix1 a))

/-- What point t writes back is block t of the score array. -/
theorem flushed_eq (c : Dev nD) (t : Fin cfg0.N) :
    (dats m 0 c).flushed 8 t = ((cfg0.win 8).blk t).view.read (Elt Ideal) (scoresOf m c) := by
  have hi := idx_facts t
  show (cfg0.win 8).cut (grid0.coords t) ((dats m 0 c).after 8 t) = _
  rw [after0_8, out_eq]
  funext y
  obtain ⟨p, rfl⟩ : ∃ p : Fin 4096, y = ix1 p := ⟨y 0, eq_ix1 y⟩
  show k0_pay1 (F := Ideal) (k0_pay4 (iblk m c 0 t) (iblk m c 1 t)) (k0_pay5 (iblk m c 0 t)) (iblk m c 2 t) (iblk m c 3 t) (iblk m c 4 t)
      (iblk m c 5 t) (iblk m c 6 t) (iblk m c 7 t) (ix1 p) = scoresOf m c (((cfg0.win 8).blk t).view.emb (ix1 p))
  refine (block_at (iblk m c 0 t) (iblk m c 1 t) (iblk m c 2 t) (iblk m c 3 t) (iblk m c 4 t) (iblk m c 5 t) (iblk m c 6 t)
    (iblk m c 7 t) p).trans ?_
  rw [iblk1_eq, iblk2_eq, iblk3_eq, iblk4_eq, iblk5_eq, iblk6_eq, iblk7_eq]
  unfold scoresOf
  refine congrArg (fun r => score r _ _ _ _ _ _ _ _) (funext fun j => ?_)
  refine iblk0_at m c t p j _ ?_
  show win0_8.index t 0 * 4096 + 1 * p.val = t.val * 4096 + p.val
  rw [hi.2.2.2.2.2.2.2.2.2.2.2.2.2]; omega

/-- A token is in point t's block of the score array iff it lies in 4096 t … 4096 t + 4095. -/
theorem mem_blk (t : Fin cfg0.N) (i : S2097152.Idx) :
    i ∈ ((cfg0.win 8).blk t).view.set ↔ ∀ a : Fin 1, win0_8.index t a * S4096.size a ≤ (i a).val
      ∧ (i a).val < win0_8.index t a * S4096.size a + S4096.size a := by
  show i ∈ ((View.whole main_v2).slice (win0_8.rect t)).set ↔ _
  rw [View.set_slice_whole, Rect.mem_set_unit]
  exact Iff.rfl

/-- The blocks written back tile the score array: after the region it holds every token's score. -/
theorem final_scores (c : Dev nD) : (dats m 0 c).arrAt 8 cfg0.N = scoresOf m c :=
  (dats m 0 c).arrAt_eq_of_cover 8 (scoresOf m c) (fun t _ => flushed_eq m c t) fun i => by
    have hi0 : (i 0).val < 2097152 := (i 0).isLt
    have hN : cfg0.N = 512 := N_0
    refine ⟨⟨(i 0).val / 4096, by rw [hN]; omega⟩, flush0_8 _, ?_⟩
    rw [mem_blk]
    intro a
    have h8 := (idx_facts ⟨(i 0).val / 4096, by rw [hN]; omega⟩).2.2.2.2.2.2.2.2.2.2.2.2.2
    match a with
    | ⟨0, _⟩ =>
      show win0_8.index ⟨(i 0).val / 4096, _⟩ 0 * 4096 ≤ (i 0).val ∧ (i 0).val < win0_8.index ⟨(i 0).val / 4096, _⟩ 0 * 4096 + 4096
      rw [h8]
      show (i 0).val / 4096 * 4096 ≤ (i 0).val ∧ (i 0).val < (i 0).val / 4096 * 4096 + 4096
      omega

/-- The token array the region finds is the [2097152, 5] view of the first argument. -/
theorem V_tokens (c : Dev nD) : (V m c main_v0 : S2097152x5.Idx → EReal)
    = shapeCast S2097152x5 (m ((c : Thread nD τ).loc main_arg0)) shapeCasts_S256x8192x5_S2097152x5 := by
  show StableHlo.after hostOps0 (fun b => m (c, b)) (Proc.devRef .tc main_v0) = _
  after_results
  all_goals rfl

/-- The 24 × 8 table the region finds is the two 24 × 4 tables side by side. -/
theorem V_table (c : Dev nD) : (V m c main_v1 : S24x8.Idx → EReal)
    = concatenate S24x8 1 [⟨S24x4, m ((c : Thread nD τ).loc main_arg1)⟩, ⟨S24x4, m ((c : Thread nD τ).loc main_arg2)⟩]
        concatenates_S24x4_S24x4_S24x8_d1 := by
  show StableHlo.after hostOps0 (fun b => m (c, b)) (Proc.devRef .tc main_v1) = _
  after_results
  all_goals rfl

/-- The result buffer after the lines that follow the region: the score array laid out as [256, 8192]. -/
theorem tail_eq (c : Dev nD) : Pipeline.afterTail₀ cfgs (dats m) 0 (V0 m) [hostOps1] c main_v3
    = shapeCast S256x8192 (scoresOf m c) shapeCasts_S2097152_S256x8192 := by
  have hw : Pipeline.withArrays (cfgs 0).spec c (V0 m c) (fun w => (dats m 0 c).arrAt w (cfgs 0).N) (Proc.devRef .tc main_v2)
      = scoresOf m c :=
    (Pipeline.withArrays_arr spec0 launch0.win.arr_inj c _ _ 8).trans (final_scores m c)
  unfold Pipeline.afterTail₀
  show StableHlo.after hostOps1 _ (Proc.devRef .tc main_v3) = _
  after_results
  exact congrArg (fun A => shapeCast S256x8192 A shapeCasts_S2097152_S256x8192) hw

/-- The left half of the two tables side by side is the first table, the right half the second. -/
theorem table_left (lw lb : FVec Ideal S24x4 .f32) (a : Fin 24) (b : Fin 4) :
    concatenate S24x8 1 [⟨S24x4, lw⟩, ⟨S24x4, lb⟩] concatenates_S24x4_S24x4_S24x8_d1 (ix2 a (⟨b.val, by omega⟩ : Fin 8)) = lw (ix2 a b) :=
  concatenate_pair_apply_left (1 : Fin 2) lw lb concatenates_S24x4_S24x4_S24x8_d1 (ix2 a (⟨b.val, by omega⟩ : Fin 8)) rfl (ix2 a b)
    (fun d => by match d with | ⟨0, _⟩ => rfl | ⟨1, _⟩ => rfl)

theorem table_right (lw lb : FVec Ideal S24x4 .f32) (a : Fin 24) (b : Fin 4) :
    concatenate S24x8 1 [⟨S24x4, lw⟩, ⟨S24x4, lb⟩] concatenates_S24x4_S24x4_S24x8_d1 (ix2 a (⟨4 + b.val, by omega⟩ : Fin 8)) = lb (ix2 a b) :=
  concatenate_pair_apply_right (1 : Fin 2) lw lb concatenates_S24x4_S24x4_S24x8_d1 (ix2 a (⟨4 + b.val, by omega⟩ : Fin 8)) rfl rfl (ix2 a b)
    (fun d hd => by
      match d with
      | ⟨0, _⟩ => rfl
      | ⟨1, _⟩ => exact absurd rfl hd)
    (by show b.val + 4 = 4 + b.val; omega)

/-- The score array laid out as [256, 8192] is the specification's result of the argument arrays. -/
theorem result_eq (c : Dev nD) : shapeCast S256x8192 (scoresOf m c) shapeCasts_S2097152_S256x8192
    = G (shapeCast S2097152x5 (m ((c : Thread nD τ).loc main_arg0)) shapeCasts_S256x8192x5_S2097152x5)
        (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) (m ((c : Thread nD τ).loc main_arg8)) := by
  funext i
  obtain ⟨a, b, rfl⟩ : ∃ (a : Fin 256) (b : Fin 8192), i = ix2 a b := ⟨i 0, i 1, eq_ix2 i⟩
  rw [shapeCast_apply (scoresOf m c) shapeCasts_S2097152_S256x8192 (ix2 a b) (ix1 (flat (ix2 a b)))
    (by rw [Shape.rowMajor_val_one, Shape.rowMajor_val_two]; rfl)]
  unfold scoresOf G rowScore
  rw [V_tokens, V_table, V_main_arg3, V_main_arg4, V_main_arg5, V_main_arg6, V_main_arg7, V_main_arg8]
  have hl : (fun (a : Fin 24) (b : Fin 4) => concatenate S24x8 1 [⟨S24x4, m ((c : Thread nD τ).loc main_arg1)⟩, ⟨S24x4, m ((c : Thread nD τ).loc main_arg2)⟩]
      concatenates_S24x4_S24x4_S24x8_d1 (ix2 a (⟨b.val, by omega⟩ : Fin 8))) = fun a b => (m ((c : Thread nD τ).loc main_arg1) : S24x4.Idx → EReal) (ix2 a b) :=
    funext fun a => funext fun b => table_left _ _ a b
  have hr : (fun (a : Fin 24) (b : Fin 4) => concatenate S24x8 1 [⟨S24x4, m ((c : Thread nD τ).loc main_arg1)⟩, ⟨S24x4, m ((c : Thread nD τ).loc main_arg2)⟩]
      concatenates_S24x4_S24x4_S24x8_d1 (ix2 a (⟨4 + b.val, by omega⟩ : Fin 8))) = fun a b => (m ((c : Thread nD τ).loc main_arg2) : S24x4.Idx → EReal) (ix2 a b) :=
    funext fun a => funext fun b => table_right _ _ a b
  rw [hl, hr]

/-- The run, read: every weakly fair execution ends with the result at the specification's function of the argument arrays,
    the arguments unchanged. -/
theorem run : θ_run defs (onTc (τ := τ) (main (F := Ideal))) ⟨m, fun _ => 0, ρ⟩ fun r => ∀ c : Dev nD,
      r.2.mem ((c.tc : Thread nD τ).loc main_v3) = G (shapeCast S2097152x5 (m ((c.tc : Thread nD τ).loc main_arg0)) shapeCasts_S256x8192x5_S2097152x5)
        (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨(((h c).2 main_v3 (Pipeline.mem_restRefs_of main_v3 (by decide) (by decide))).trans (tail_eq m c)).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c))),
      ((h c).1 6).trans (((dats m 0 c).arrAt_in 6 rfl _).trans ((A_eq m c 6).trans (V_main_arg7 m c))),
      ((h c).1 7).trans (((dats m 0 c).arrAt_in 7 rfl _).trans ((A_eq m c 7).trans (V_main_arg8 m c)))⟩)
    (run_main m ρ)

end Cert.KernelIdeal.Arr

end
-- ==== Proof.ReferenceScore.lean ====
/-
  The reference program's result, read element by element, is the per-token score.

  For token n of the [2097152, 5] view X of the input, the reference computes: the position X (n, 4); the layer it selects,
  24 times the position truncated and clipped into [0, 23]; the normalised features (mean and biased variance over the four
  features, the reciprocal square root of the offset variance); the rows of the two 24 × 4 tables at the selected layer (a
  gather whose negative-index correction and clamp never act, the layer lying in [0, 23]); the row of five joining the scaled
  and shifted normalised features with the position; and three affine layers, the first two followed by the maximum with 0.
  Each step below reads one stage of the generated reading of the reference at explicit coordinates and identifies it with the
  matching piece of the specification.
-/
import proofs.«177214_j15848429322274_1_alg».proof.Proof.Gen.ReferenceIdeal.Read
import proofs.«177214_j15848429322274_1_alg».proof.Proof.RouterRow
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Cert.RouterRow
open Idealize.ShloMosaic Idealize.ShloMosaic.ValueIdx Idealize.ShloMosaic.StableHlo

/-! ## The position and the layer it selects -/

/-- The position column: element n is the token's fifth entry. -/
theorem pos_apply (x0 : (⟨S256x8192x5, .f32⟩ : BufTy).Contents (Elt Ideal)) (n : Fin 2097152) :
    val_main_v2 (F := Ideal) x0 (ix1 n) = val_main_v0 (F := Ideal) x0 (ix2 n (4 : Fin 5)) := by
  rw [val_main_v2_apply, val_main_v1_apply]
  refine congrArg _ (funext fun a => Fin.ext ?_)
  match a with
  | ⟨0, _⟩ => show n.val / 1 = n.val; exact Nat.div_one _
  | ⟨1, _⟩ => rfl

/-- The clipped layer number of token n. -/
theorem ids_apply (x0 : (⟨S256x8192x5, .f32⟩ : BufTy).Contents (Elt Ideal)) (n : Fin 2097152) :
    val_main_v6 (F := Ideal) x0 (ix1 n) = layerId (val_main_v0 (F := Ideal) x0 (ix2 n (4 : Fin 5))) := by
  rw [val_main_v6_apply, val_main_call0_v4_apply, val_main_call0_v3_apply, val_main_c_0_apply,
    val_main_call0_v2_apply, val_main_call0_v1_apply, val_main_call0_v0_apply, val_main_c_apply,
    val_main_v5_apply, val_main_v4_apply, val_main_v3_apply, val_main_cst_apply, pos_apply]
  rfl

/-- A layer number is not negative, so the comparison with 0 answers the zero bit. -/
theorem layerId_not_neg (p : EReal) : IntOp.cmpi .slt (layerId p) 0#32 = 0#1 := by
  have h := (layerId_range p).1
  have h0 : (0#32 : BitVec 32).toInt = 0 := by decide
  unfold IntOp.cmpi
  have : (layerId p).slt 0#32 = false := by
    simp only [BitVec.slt, decide_eq_false_iff_not]; omega
  simp only [this]; rfl

/-- The negative-index correction leaves the layer number as it is (first table). -/
theorem ids_w_apply (x0 : (⟨S256x8192x5, .f32⟩ : BufTy).Contents (Elt Ideal)) (n : Fin 2097152) :
    val_main_v30 (F := Ideal) x0 (ix1 n) = layerId (val_main_v0 (F := Ideal) x0 (ix2 n (4 : Fin 5))) := by
  rw [val_main_v30_apply, val_main_v27_apply, val_main_v26_apply, val_main_c_6_apply, ids_apply, layerId_not_neg,
    select_zero]

/-- The negative-index correction leaves the layer number as it is (second table). -/
theorem ids_b_apply (x0 : (⟨S256x8192x5, .f32⟩ : BufTy).Contents (Elt Ideal)) (n : Fin 2097152) :
    val_main_v38 (F := Ideal) x0 (ix1 n) = layerId (val_main_v0 (F := Ideal) x0 (ix2 n (4 : Fin 5))) := by
  rw [val_main_v38_apply, val_main_v35_apply, val_main_v34_apply, val_main_c_8_apply, ids_apply, layerId_not_neg,
    select_zero]

/-! ## The gathers: a row of a 24 × 4 table at the selected layer -/

/-- The row a start index names: read signed, clamped into [0, 23]. -/
def rowOf (b : BitVec 32) : Fin 24 := ⟨min b.toInt.toNat 23, by omega⟩

/-- A layer number is its own row. -/
theorem rowOf_layerId (p : EReal) : rowOf (layerId p) = layerIdx p := by
  have h := layerId_range p
  unfold rowOf layerIdx
  refine Fin.ext ?_
  show min (layerId p).toInt.toNat 23 = (layerId p).toInt.toNat
  omega

/-- The gather of whole rows read at (n, j): the table at the row the n-th start index names, column j. -/
theorem gather_rows_apply {α : Type} (x : S24x4.Idx → α) (idx : IVec S2097152x1 32) (n : Fin 2097152) (j : Fin 4) :
    Host.gather gather_S24x4_S2097152x1_S2097152x4_1_0_n_n_0_1_14 x idx (ix2 n j)
      = x (ix2 (rowOf (idx (ix2 n (0 : Fin 1)))) j) := by
  unfold Host.gather
  refine congrArg x (funext fun a => Fin.ext ?_)
  match a with
  | ⟨0, _⟩ =>
    show gather_S24x4_S2097152x1_S2097152x4_1_0_n_n_0_1_14.start (ix2 n j) idx 0
        + gather_S24x4_S2097152x1_S2097152x4_1_0_n_n_0_1_14.batchCoord (ix2 n j) 0
        + gather_S24x4_S2097152x1_S2097152x4_1_0_n_n_0_1_14.offCoord (ix2 n j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S24x4_S2097152x1_S2097152x4_1_0_n_n_0_1_14.startIndexMap from
      List.mem_singleton.mpr rfl)]
    have hsi : gather_S24x4_S2097152x1_S2097152x4_1_0_n_n_0_1_14.siIdx (ix2 n j)
        ⟨List.idxOf (0 : Fin 2) gather_S24x4_S2097152x1_S2097152x4_1_0_n_n_0_1_14.startIndexMap,
          List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  | ⟨1, _⟩ =>
    show gather_S24x4_S2097152x1_S2097152x4_1_0_n_n_0_1_14.start (ix2 n j) idx 1
        + gather_S24x4_S2097152x1_S2097152x4_1_0_n_n_0_1_14.batchCoord (ix2 n j) 1
        + gather_S24x4_S2097152x1_S2097152x4_1_0_n_n_0_1_14.offCoord (ix2 n j) 1 = j.val
    rw [GatherDims.batchCoord_eq_zero _ _ _ List.not_mem_nil]
    have hs : gather_S24x4_S2097152x1_S2097152x4_1_0_n_n_0_1_14.start (ix2 n j) idx 1 = 0 := by
      unfold GatherDims.start
      rw [dif_neg (by decide)]
    have ho : gather_S24x4_S2097152x1_S2097152x4_1_0_n_n_0_1_14.offCoord (ix2 n j) 1 = j.val := by
      unfold GatherDims.offCoord
      rw [dif_pos (by decide)]
      rfl
    rw [hs, ho]; omega

/-- The start-index column reads the corrected layer numbers. -/
theorem idx31 (n : Fin 2097152) : idx_main_v31 (ix2 n (0 : Fin 1)) = ix1 n :=
  funext fun a => match a with | ⟨0, _⟩ => rfl

/-- The first gather at (n, j): the first table's row for token n's layer. -/
theorem gather_w_apply (x0 : (⟨S256x8192x5, .f32⟩ : BufTy).Contents (Elt Ideal))
    (x1 : (⟨S24x4, .f32⟩ : BufTy).Contents (Elt Ideal)) (n : Fin 2097152) (j : Fin 4) :
    val_main_v32 (F := Ideal) x0 x1 (ix2 n j)
      = x1 (ix2 (layerIdx (val_main_v0 (F := Ideal) x0 (ix2 n (4 : Fin 5)))) j) := by
  unfold val_main_v32
  rw [gather_rows_apply, val_main_v31_apply, idx31, ids_w_apply, rowOf_layerId]

/-- The second gather at (n, j): the second table's row for token n's layer. -/
theorem gather_b_apply (x0 : (⟨S256x8192x5, .f32⟩ : BufTy).Contents (Elt Ideal))
    (x2 : (⟨S24x4, .f32⟩ : BufTy).Contents (Elt Ideal)) (n : Fin 2097152) (j : Fin 4) :
    val_main_v40 (F := Ideal) x0 x2 (ix2 n j)
      = x2 (ix2 (layerIdx (val_main_v0 (F := Ideal) x0 (ix2 n (4 : Fin 5)))) j) := by
  unfold val_main_v40
  rw [gather_rows_apply, val_main_v39_apply, show idx_main_v39 (ix2 n (0 : Fin 1)) = ix1 n from idx31 n, ids_b_apply,
    rowOf_layerId]

/-! ## The normalised features -/

/-- Token n as a row of five numbers. -/
abbrev row (x0 : (⟨S256x8192x5, .f32⟩ : BufTy).Contents (Elt Ideal)) (n : Fin 2097152) : Fin 5 → EReal :=
  fun k => val_main_v0 (F := Ideal) x0 (ix2 n k)

/-- The feature columns: element (n, j) is the token's j-th entry. -/
theorem feat_apply (x0 : (⟨S256x8192x5, .f32⟩ : BufTy).Contents (Elt Ideal)) (n : Fin 2097152) (j : Fin 4) :
    val_main_v7 (F := Ideal) x0 (ix2 n j) = feats (row x0 n) j := by
  rw [val_main_v7_apply]
  show val_main_v0 (F := Ideal) x0 _ = val_main_v0 (F := Ideal) x0 (ix2 n (⟨j.val, by omega⟩ : Fin 5))
  exact congrArg (val_main_v0 (F := Ideal) x0) (funext fun a => Fin.ext (by match a with | ⟨0, _⟩ => rfl | ⟨1, _⟩ => rfl))

/- The index functions of the reading, at explicit coordinates: each sum over the four features ranges over row n, and each
   per-token column (mean, variance, reciprocal square root) is read at (n, 0). -/
theorem idx8 (n : Fin 2097152) (k : Fin 4) : idx_main_v8 (ix1 n) k = ix2 n k := funext fun a => Fin.ext (by match a with | ⟨0, _⟩ => rfl | ⟨1, _⟩ => rfl)
theorem idx9 (n : Fin 2097152) : idx_main_v9 (ix2 n (0 : Fin 1)) = ix1 n := funext fun a => Fin.ext (by match a with | ⟨0, _⟩ => rfl)
theorem idx12 (n : Fin 2097152) (k : Fin 4) : idx_main_v12 (ix2 n k) = ix2 n (0 : Fin 1) := funext fun a => Fin.ext (by match a with | ⟨0, _⟩ => rfl | ⟨1, _⟩ => rfl)
theorem idx15 (n : Fin 2097152) (k : Fin 4) : idx_main_v15 (ix1 n) k = ix2 n k := funext fun a => Fin.ext (by match a with | ⟨0, _⟩ => rfl | ⟨1, _⟩ => rfl)
theorem idx16 (n : Fin 2097152) : idx_main_v16 (ix2 n (0 : Fin 1)) = ix1 n := funext fun a => Fin.ext (by match a with | ⟨0, _⟩ => rfl)
theorem idx19 (n : Fin 2097152) (k : Fin 4) : idx_main_v19 (ix2 n k) = ix2 n (0 : Fin 1) := funext fun a => Fin.ext (by match a with | ⟨0, _⟩ => rfl | ⟨1, _⟩ => rfl)
theorem idx24 (n : Fin 2097152) (k : Fin 4) : idx_main_v24 (ix2 n k) = ix2 n (0 : Fin 1) := funext fun a => Fin.ext (by match a with | ⟨0, _⟩ => rfl | ⟨1, _⟩ => rfl)

/-- The mean of token n's four features: their sum (the host sum starts from 0) over 4. -/
theorem mean_apply (x0 : (⟨S256x8192x5, .f32⟩ : BufTy).Contents (Elt Ideal)) (n : Fin 2097152) :
    val_main_v11 (F := Ideal) x0 (ix2 n (0 : Fin 1)) = mean4 (feats (row x0 n)) := by
  rw [val_main_v11_apply, val_main_v9_apply, idx9, val_main_v8_apply, val_main_cst_1_apply, val_main_v10_apply,
    val_main_cst_2_apply]
  unfold mean4
  simp only [Ideal.hostDivf_def, Ideal.ofBits_def, Ideal.ofBits_zero_f32, zero_add]
  refine congrArg (fun s => Ideal.div s _) (Finset.sum_congr rfl fun k _ => ?_)
  rw [idx8, feat_apply]

/-- Their biased variance: the sum of the squared deviations from the mean over 4. -/
theorem var_apply (x0 : (⟨S256x8192x5, .f32⟩ : BufTy).Contents (Elt Ideal)) (n : Fin 2097152) :
    val_main_v18 (F := Ideal) x0 (ix2 n (0 : Fin 1)) = var4 (feats (row x0 n)) := by
  rw [val_main_v18_apply, val_main_v16_apply, idx16, val_main_v15_apply, val_main_cst_3_apply, val_main_v17_apply,
    val_main_cst_4_apply]
  unfold var4
  simp only [Ideal.hostDivf_def, Ideal.ofBits_def, Ideal.ofBits_zero_f32, zero_add]
  refine congrArg (fun s => Ideal.div s _) (Finset.sum_congr rfl fun k _ => ?_)
  rw [idx15, val_main_v14_apply, val_main_v13_apply, val_main_v12_apply, idx12, mean_apply, feat_apply]
  rfl

/-- The normalised feature (n, j): the deviation times the reciprocal square root of the offset variance. -/
theorem normed_apply (x0 : (⟨S256x8192x5, .f32⟩ : BufTy).Contents (Elt Ideal)) (n : Fin 2097152) (j : Fin 4) :
    val_main_v25 (F := Ideal) x0 (ix2 n j) = normed (feats (row x0 n)) j := by
  rw [val_main_v25_apply, val_main_v20_apply, val_main_v19_apply, idx19, mean_apply, feat_apply, val_main_v24_apply,
    idx24, val_main_v23_apply, val_main_v22_apply, var_apply, val_main_v21_apply, val_main_cst_5_apply]
  rfl

/-! ## The concatenation of the [2097152, 4] and the [2097152, 1] pieces along the second axis -/

/-- A column below 4 reads the first piece at the same coordinates. -/
theorem concat_left_apply {α : Type} (a : S2097152x4.Idx → α) (b : S2097152x1.Idx → α) (n : Fin 2097152) (j : Fin 5)
    (h : j.val < 4) :
    concatenate S2097152x5 1 [⟨S2097152x4, a⟩, ⟨S2097152x1, b⟩] concatenates_S2097152x4_S2097152x1_S2097152x5_d1 (ix2 n j)
      = a (ix2 n (⟨j.val, h⟩ : Fin 4)) :=
  concatenate_pair_apply_left 1 a b concatenates_S2097152x4_S2097152x1_S2097152x5_d1 (ix2 n j) rfl
    (ix2 n (⟨j.val, h⟩ : Fin 4)) (fun c => match c with | ⟨0, _⟩ => rfl | ⟨1, _⟩ => rfl)

/-- Column 4 reads the second piece's one column. -/
theorem concat_right_apply {α : Type} (a : S2097152x4.Idx → α) (b : S2097152x1.Idx → α) (n : Fin 2097152) (j : Fin 5)
    (h : ¬ j.val < 4) :
    concatenate S2097152x5 1 [⟨S2097152x4, a⟩, ⟨S2097152x1, b⟩] concatenates_S2097152x4_S2097152x1_S2097152x5_d1 (ix2 n j)
      = b (ix2 n (0 : Fin 1)) :=
  concatenate_pair_apply_right 1 a b concatenates_S2097152x4_S2097152x1_S2097152x5_d1 (ix2 n j) rfl rfl
    (ix2 n (0 : Fin 1)) (fun c hc => match c with | ⟨0, _⟩ => rfl | ⟨1, _⟩ => absurd (Fin.ext rfl) hc)
    (by have := j.isLt; show 0 + 4 = j.val; omega)

/-- The position column broadcast to [2097152, 1] reads the position of token n. -/
theorem idx42 (n : Fin 2097152) : idx_main_v42 (ix2 n (0 : Fin 1)) = ix1 n := funext fun a => Fin.ext (by match a with | ⟨0, _⟩ => rfl)

/-- The row of five the first affine layer reads, at (n, j). -/
theorem xnorm_apply (x0 : (⟨S256x8192x5, .f32⟩ : BufTy).Contents (Elt Ideal)) (x1 x2 : (⟨S24x4, .f32⟩ : BufTy).Contents (Elt Ideal)) (n : Fin 2097152) (j : Fin 5) :
    val_main_v43 (F := Ideal) x0 x1 x2 (ix2 n j)
      = xnorm (row x0 n) (fun a b => x1 (ix2 a b)) (fun a b => x2 (ix2 a b)) j := by
  unfold val_main_v43 xnorm
  by_cases h : j.val < 4
  · rw [dif_pos h, concat_left_apply _ _ n j h, val_main_v41_apply, val_main_v33_apply, normed_apply, gather_w_apply,
      gather_b_apply]
    rfl
  · rw [dif_neg h, concat_right_apply _ _ n j h, val_main_v42_apply, idx42, pos_apply]

/-! ## The three affine layers -/

/- The index functions of the three contractions and bias broadcasts, at explicit coordinates: output (n, o) contracts row n
   of the left operand with row o of the weights (read through the transpose), and adds entry o of the bias. -/
theorem lidx45 (n : Fin 2097152) (o : Fin 64) (k : Fin 5) : lidx_main_v45 (ix2 n o) k = ix2 n k := funext fun a => Fin.ext (by match a with | ⟨0, _⟩ => rfl | ⟨1, _⟩ => rfl)
theorem ridx45 (n : Fin 2097152) (o : Fin 64) (k : Fin 5) : idx_main_v44 (ridx_main_v45 (ix2 n o) k) = ix2 o k := funext fun a => Fin.ext (by match a with | ⟨0, _⟩ => rfl | ⟨1, _⟩ => rfl)
theorem bias47 (n : Fin 2097152) (o : Fin 64) : idx_main_v46 (idx_main_v47 (ix2 n o)) = ix1 o := funext fun a => Fin.ext (by match a with | ⟨0, _⟩ => rfl)
theorem lidx51 (n : Fin 2097152) (o : Fin 32) (k : Fin 64) : lidx_main_v51 (ix2 n o) k = ix2 n k := funext fun a => Fin.ext (by match a with | ⟨0, _⟩ => rfl | ⟨1, _⟩ => rfl)
theorem ridx51 (n : Fin 2097152) (o : Fin 32) (k : Fin 64) : idx_main_v50 (ridx_main_v51 (ix2 n o) k) = ix2 o k := funext fun a => Fin.ext (by match a with | ⟨0, _⟩ => rfl | ⟨1, _⟩ => rfl)
theorem bias53 (n : Fin 2097152) (o : Fin 32) : idx_main_v52 (idx_main_v53 (ix2 n o)) = ix1 o := funext fun a => Fin.ext (by match a with | ⟨0, _⟩ => rfl)
theorem lidx57 (n : Fin 2097152) (o : Fin 1) (k : Fin 32) : lidx_main_v57 (ix2 n o) k = ix2 n k := funext fun a => Fin.ext (by match a with | ⟨0, _⟩ => rfl | ⟨1, _⟩ => rfl)
theorem ridx57 (n : Fin 2097152) (o : Fin 1) (k : Fin 32) : idx_main_v56 (ridx_main_v57 (ix2 n o) k) = ix2 o k := funext fun a => Fin.ext (by match a with | ⟨0, _⟩ => rfl | ⟨1, _⟩ => rfl)
theorem bias59 (n : Fin 2097152) (o : Fin 1) : idx_main_v58 (idx_main_v59 (ix2 n o)) = ix1 (0 : Fin 1) := funext fun a => Fin.ext (by match a with | ⟨0, _⟩ => rfl)

/-- The first hidden row of token n: the first affine layer, then the maximum with 0. -/
abbrev hid1 (x0 : (⟨S256x8192x5, .f32⟩ : BufTy).Contents (Elt Ideal)) (x1 x2 : (⟨S24x4, .f32⟩ : BufTy).Contents (Elt Ideal)) (x3 : (⟨S64x5, .f32⟩ : BufTy).Contents (Elt Ideal)) (x4 : (⟨S64, .f32⟩ : BufTy).Contents (Elt Ideal)) (n : Fin 2097152) : Fin 64 → EReal :=
  fun k => max (dense (xnorm (row x0 n) (fun a b => x1 (ix2 a b)) (fun a b => x2 (ix2 a b))) (fun a b => x3 (ix2 a b)) (fun a => x4 (ix1 a)) k) 0

/-- The second hidden row of token n: the second affine layer, then the maximum with 0. -/
abbrev hid2 (x0 : (⟨S256x8192x5, .f32⟩ : BufTy).Contents (Elt Ideal)) (x1 x2 : (⟨S24x4, .f32⟩ : BufTy).Contents (Elt Ideal)) (x3 : (⟨S64x5, .f32⟩ : BufTy).Contents (Elt Ideal)) (x4 : (⟨S64, .f32⟩ : BufTy).Contents (Elt Ideal)) (x5 : (⟨S32x64, .f32⟩ : BufTy).Contents (Elt Ideal)) (x6 : (⟨S32, .f32⟩ : BufTy).Contents (Elt Ideal)) (n : Fin 2097152) : Fin 32 → EReal :=
  fun k => max (dense (hid1 x0 x1 x2 x3 x4 n) (fun a b => x5 (ix2 a b)) (fun a => x6 (ix1 a)) k) 0

/-- The first affine layer at (n, o). -/
theorem layer1_apply (x0 : (⟨S256x8192x5, .f32⟩ : BufTy).Contents (Elt Ideal)) (x1 x2 : (⟨S24x4, .f32⟩ : BufTy).Contents (Elt Ideal)) (x3 : (⟨S64x5, .f32⟩ : BufTy).Contents (Elt Ideal)) (x4 : (⟨S64, .f32⟩ : BufTy).Contents (Elt Ideal)) (n : Fin 2097152) (o : Fin 64) :
    val_main_v48 (F := Ideal) x0 x1 x2 x3 x4 (ix2 n o)
      = dense (xnorm (row x0 n) (fun a b => x1 (ix2 a b)) (fun a b => x2 (ix2 a b))) (fun a b => x3 (ix2 a b)) (fun a => x4 (ix1 a)) o := by
  rw [val_main_v48_apply, Ideal.addf_def, val_main_v45_apply, val_main_v47_apply, val_main_v46_apply, bias47]
  unfold dense
  refine congrArg (fun s => s + _) (Finset.sum_congr rfl fun k _ => ?_)
  rw [lidx45, xnorm_apply, val_main_v44_apply, ridx45]

/-- The first hidden row at (n, o). -/
theorem hid1_apply (x0 : (⟨S256x8192x5, .f32⟩ : BufTy).Contents (Elt Ideal)) (x1 x2 : (⟨S24x4, .f32⟩ : BufTy).Contents (Elt Ideal)) (x3 : (⟨S64x5, .f32⟩ : BufTy).Contents (Elt Ideal)) (x4 : (⟨S64, .f32⟩ : BufTy).Contents (Elt Ideal)) (n : Fin 2097152) (o : Fin 64) :
    val_main_v49 (F := Ideal) x0 x1 x2 x3 x4 (ix2 n o) = hid1 x0 x1 x2 x3 x4 n o := by
  rw [val_main_v49_apply, layer1_apply, val_main_call1_v0_apply, val_main_call1_cst_apply, Ideal.maximumf_def,
    Ideal.ofBits_def, Ideal.ofBits_zero_f32]

/-- The second affine layer at (n, o). -/
theorem layer2_apply (x0 : (⟨S256x8192x5, .f32⟩ : BufTy).Contents (Elt Ideal)) (x1 x2 : (⟨S24x4, .f32⟩ : BufTy).Contents (Elt Ideal)) (x3 : (⟨S64x5, .f32⟩ : BufTy).Contents (Elt Ideal)) (x4 : (⟨S64, .f32⟩ : BufTy).Contents (Elt Ideal)) (x5 : (⟨S32x64, .f32⟩ : BufTy).Contents (Elt Ideal)) (x6 : (⟨S32, .f32⟩ : BufTy).Contents (Elt Ideal)) (n : Fin 2097152) (o : Fin 32) :
    val_main_v54 (F := Ideal) x0 x1 x2 x3 x4 x5 x6 (ix2 n o)
      = dense (hid1 x0 x1 x2 x3 x4 n) (fun a b => x5 (ix2 a b)) (fun a => x6 (ix1 a)) o := by
  rw [val_main_v54_apply, Ideal.addf_def, val_main_v51_apply, val_main_v53_apply, val_main_v52_apply, bias53]
  unfold dense
  refine congrArg (fun s => s + _) (Finset.sum_congr rfl fun k _ => ?_)
  rw [lidx51, hid1_apply, val_main_v50_apply, ridx51]

/-- The second hidden row at (n, o). -/
theorem hid2_apply (x0 : (⟨S256x8192x5, .f32⟩ : BufTy).Contents (Elt Ideal)) (x1 x2 : (⟨S24x4, .f32⟩ : BufTy).Contents (Elt Ideal)) (x3 : (⟨S64x5, .f32⟩ : BufTy).Contents (Elt Ideal)) (x4 : (⟨S64, .f32⟩ : BufTy).Contents (Elt Ideal)) (x5 : (⟨S32x64, .f32⟩ : BufTy).Contents (Elt Ideal)) (x6 : (⟨S32, .f32⟩ : BufTy).Contents (Elt Ideal)) (n : Fin 2097152) (o : Fin 32) :
    val_main_v55 (F := Ideal) x0 x1 x2 x3 x4 x5 x6 (ix2 n o) = hid2 x0 x1 x2 x3 x4 x5 x6 n o := by
  rw [val_main_v55_apply, layer2_apply, val_main_call2_v0_apply, val_main_call2_cst_apply, Ideal.maximumf_def,
    Ideal.ofBits_def, Ideal.ofBits_zero_f32]

/-- The third affine layer at (n, 0): the score of token n. -/
theorem score_apply (x0 : (⟨S256x8192x5, .f32⟩ : BufTy).Contents (Elt Ideal)) (x1 x2 : (⟨S24x4, .f32⟩ : BufTy).Contents (Elt Ideal)) (x3 : (⟨S64x5, .f32⟩ : BufTy).Contents (Elt Ideal)) (x4 : (⟨S64, .f32⟩ : BufTy).Contents (Elt Ideal)) (x5 : (⟨S32x64, .f32⟩ : BufTy).Contents (Elt Ideal)) (x6 : (⟨S32, .f32⟩ : BufTy).Contents (Elt Ideal)) (x7 : (⟨S1x32, .f32⟩ : BufTy).Contents (Elt Ideal)) (x8 : (⟨S1, .f32⟩ : BufTy).Contents (Elt Ideal)) (n : Fin 2097152) :
    val_main_v60 (F := Ideal) x0 x1 x2 x3 x4 x5 x6 x7 x8 (ix2 n (0 : Fin 1))
      = rowScore (val_main_v0 (F := Ideal) x0) x1 x2 x3 x4 x5 x6 x7 x8 n := by
  rw [val_main_v60_apply, Ideal.addf_def, val_main_v57_apply, val_main_v59_apply, val_main_v58_apply, bias59]
  show _ = dense (hid2 x0 x1 x2 x3 x4 x5 x6 n) (fun a b => x7 (ix2 a b)) (fun a => x8 (ix1 a)) (0 : Fin 1)
  unfold dense
  refine congrArg (fun s => s + _) (Finset.sum_congr rfl fun k _ => ?_)
  rw [lidx57, hid2_apply, val_main_v56_apply, ridx57]

/-! ## The result array -/

/-- The final reshape reads token (i 0) · 8192 + (i 1), in its one column. -/
theorem idx61 (i : S256x8192.Idx) : idx_main_v61 i = ix2 (flat i) (0 : Fin 1) :=
  funext fun a => Fin.ext (by
    match a with
    | ⟨0, _⟩ => show ((i 0).val * 8192 + (i 1).val) / 1 = (i 0).val * 8192 + (i 1).val; exact Nat.div_one _
    | ⟨1, _⟩ => rfl)

/-- The reference's result is the per-token score of the [2097152, 5] view of its first argument. -/
theorem ref_eq (x0 : (⟨S256x8192x5, .f32⟩ : BufTy).Contents (Elt Ideal)) (x1 x2 : (⟨S24x4, .f32⟩ : BufTy).Contents (Elt Ideal)) (x3 : (⟨S64x5, .f32⟩ : BufTy).Contents (Elt Ideal)) (x4 : (⟨S64, .f32⟩ : BufTy).Contents (Elt Ideal)) (x5 : (⟨S32x64, .f32⟩ : BufTy).Contents (Elt Ideal)) (x6 : (⟨S32, .f32⟩ : BufTy).Contents (Elt Ideal)) (x7 : (⟨S1x32, .f32⟩ : BufTy).Contents (Elt Ideal)) (x8 : (⟨S1, .f32⟩ : BufTy).Contents (Elt Ideal)) :
    Cert.ReferenceIdeal.Read.val_main_v61 (F := Ideal) x0 x1 x2 x3 x4 x5 x6 x7 x8
      = Cert.RouterRow.G (Cert.ReferenceIdeal.Read.val_main_v0 (F := Ideal) x0) x1 x2 x3 x4 x5 x6 x7 x8 := by
  funext i
  rw [val_main_v61_apply, idx61, score_apply]
  rfl

end Cert.ReferenceIdeal.RefValue

end
-- ==== Proof.lean ====
/-
  The kernel and its reference compute the same scores, as extended reals.

  Both programs read an array of 256 × 8192 tokens of five numbers each — four features and a position — and a handful of small
  parameter arrays. Per token, the position selects one of 24 layers (24 times the position, truncated, clipped to 0 … 23);
  the four features are normalised by their own mean and biased variance, scaled and shifted by the selected layer's rows of two
  24 × 4 tables, joined again with the position, and passed through three affine layers 5 → 64 → 32 → 1, the first two followed
  by the maximum with zero. Proof/RouterRow.lean states this as one function G of the argument arrays.

  The kernel works on 512 blocks of 4096 tokens; it selects the table rows by multiplying a one-hot matrix with the two tables
  side by side, which at the exact values is the selected row itself because exactly one entry of the one-hot row is 1 and the
  others are 0; it rounds the operands of its matrix products, which at the exact values changes nothing; and it writes one block
  of 4096 scores per grid point, the blocks tiling the result (Proof/KernelRow.lean: one block; Proof/KernelArray.lean: the array
  and the run). The reference gathers the rows directly and multiplies whole arrays (Proof/ReferenceScore.lean). Both are G.
  The three frame claims are the generated frames and the reference's generated run; the idealization rewrote nothing.
-/
import proofs.«177214_j15848429322274_1_alg».proof.Defs
import proofs.«177214_j15848429322274_1_alg».proof.Proof.Gen.Kernel
import proofs.«177214_j15848429322274_1_alg».proof.Proof.Gen.Kernel.Skeleton
import proofs.«177214_j15848429322274_1_alg».proof.Proof.Gen.Kernel.Launch
import proofs.«177214_j15848429322274_1_alg».proof.Proof.Gen.Kernel.Points
import proofs.«177214_j15848429322274_1_alg».proof.Proof.Gen.Kernel.Frame
import proofs.«177214_j15848429322274_1_alg».proof.Proof.Gen.KernelIdeal
import proofs.«177214_j15848429322274_1_alg».proof.Proof.Gen.KernelIdeal.Skeleton
import proofs.«177214_j15848429322274_1_alg».proof.Proof.Gen.KernelIdeal.Launch
import proofs.«177214_j15848429322274_1_alg».proof.Proof.Gen.KernelIdeal.Points
import proofs.«177214_j15848429322274_1_alg».proof.Proof.Gen.KernelIdeal.Frame
import proofs.«177214_j15848429322274_1_alg».proof.Proof.Gen.ReferenceIdeal
import proofs.«177214_j15848429322274_1_alg».proof.Proof.Gen.ReferenceIdeal.Run
import proofs.«177214_j15848429322274_1_alg».proof.Proof.Gen.ReferenceIdeal.Read
import proofs.«177214_j15848429322274_1_alg».proof.Proof.Gen.Pre_finite_inputs
import proofs.«177214_j15848429322274_1_alg».proof.Proof.KernelArray
import proofs.«177214_j15848429322274_1_alg».proof.Proof.ReferenceScore
import Idealize.ShloMosaic.Adequacy
import Idealize.ShloMosaic.Init

noncomputable section

namespace Cert.Proof

open Idealize.ShloMosaic Idealize.SL.Sem

/-- The word-level kernel runs and leaves its arguments unchanged: the generated frame. -/
theorem frame_k : Cert.frame_Kernel := fun m ρ _ => Cert.Kernel.Gen.frame m ρ

/-- The idealized kernel likewise. -/
theorem frame_ki : Cert.frame_KernelIdeal := fun m ρ _ => Cert.KernelIdeal.Gen.frame m ρ

/-- The reference runs and leaves its arguments unchanged: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the exact values the kernel's result array ends at G of its arguments (the kernel's run, read) and the reference's at
    its composed term, which is G of its arguments; the arguments agree. -/
theorem algebraic : Cert.algebraic_KernelIdeal_ReferenceIdeal := by
  intro m ρ m' ρ' _ hagree
  refine ⟨_, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v61_eq, Cert.ReferenceIdeal.RefValue.ref_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
